-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x180 : Shape := ⟨2, ![50000, 180]⟩
abbrev S180x128 : Shape := ⟨2, ![180, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S2x800000 : Shape := ⟨2, ![2, 800000]⟩
abbrev S_ : Shape := ⟨0, ![]⟩

class Facts : Prop where
  bcast_S_S50000x180 : S_.BroadcastsInDim S50000x180 (![] : Fin 0 → Fin S50000x180.rank)
  reducesTo_S50000x180_S_d0_1 : S50000x180.ReducesTo [0, 1] S_
  h_S_ : 0 < S_.numel
  bcast_S_S180x128 : S_.BroadcastsInDim S180x128 (![] : Fin 0 → Fin S180x128.rank)
  reducesTo_S180x128_S_d0_1 : S180x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128 .f32) (main_arg5 : FVec F S128x64 .f32) (main_arg6 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x180 .f32) (main_arg1 : FVec F S180x128 .f32) (main_arg2 : FVec F S128 .f32) (main_arg3 : FVec F S128x128 .f32) (main_arg4 : FVec F S128 .f32) (main_arg5 : FVec F S128x64 .f32) (main_arg6 : FVec F S64 .f32) (main_arg7 : IVec S2x800000 32) : IVec S_ 1 :=
  let main_v0 : FVec F S50000x180 .f32 := Host.absf main_arg0
  let main_cst : FVec F S_ .f32 := constant S_ .f32 0x7F800000#32
  let main_v1 : FVec F S50000x180 .f32 := broadcastInDim S50000x180 ![] bcast_S_S50000x180 main_cst
  let main_v2 : IVec S50000x180 1 := cmpf .olt main_v0 main_v1
  let main_c : IVec S_ 1 := constantI S_ 1 1#1
  let main_v3 : IVec S_ 1 := (fun x v => Host.reduce IntOp.andi x v reducesTo_S50000x180_S_d0_1 h_S_) main_v2 main_c
  let main_v4 : FVec F S180x128 .f32 := Host.absf main_arg1
  let main_cst_0 : FVec F S_ .f32 := constant S_ .f32 0x7F800000#32
  let main_v5 : FVec F S180x128 .f32 := broadcastInDim S180x128 ![] bcast_S_S180x128 main_cst_0
  let main_v6 : IVec S180x128 1 := cmpf .olt main_v4 main_v5
  let main_c_1 : IVec S_ 1 := constantI S_ 1 1#1
  let main_v7 : IVec S_ 1 := (fun x v => Host.reduce IntOp.andi x v reducesTo_S180x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S50000x180 : Shape := ⟨2, ![50000, 180]⟩
abbrev S180x128 : Shape := ⟨2, ![180, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S2x800000 : Shape := ⟨2, ![2, 800000]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S1x128 : Shape := ⟨2, ![1, 128]⟩
abbrev S50000x128 : Shape := ⟨2, ![50000, 128]⟩
abbrev S5000x180 : Shape := ⟨2, ![5000, 180]⟩
abbrev S5000x1 : Shape := ⟨2, ![5000, 1]⟩
abbrev S5000x128 : Shape := ⟨2, ![5000, 128]⟩
abbrev S850000x128 : Shape := ⟨2, ![850000, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 65
  | .vmem => 24
  | .smem => 0
  | _ => 0

abbrev bufTy : (tb : Table) → Fin (tcTables nBuf tb) → BufTy
  | .hbm, ⟨0, _⟩ => ⟨S50000x180, .f32⟩
  | .hbm, ⟨1, _⟩ => ⟨S180x128, .f32⟩
  | .hbm, ⟨2, _⟩ => ⟨S128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S2x800000, .i32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000, .i32⟩
  | .hbm, ⟨13, _⟩ => ⟨S850000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000x1, .f32⟩
  | .hbm, ⟨33, _⟩ => ⟨S1x128, .f32⟩
  | .hbm, ⟨34, _⟩ => ⟨S50000x128, .f32⟩
  | .hbm, ⟨35, _⟩ => ⟨S_, .i32⟩
  | .hbm, ⟨36, _⟩ => ⟨S850000, .i32⟩
  | .hbm, ⟨37, _⟩ => ⟨S850000, .i1⟩
  | .hbm, ⟨38, _⟩ => ⟨S_, .i32⟩
  | .hbm, ⟨39, _⟩ => ⟨S850000, .i32⟩
  | .hbm, ⟨40, _⟩ => ⟨S850000, .i32⟩
  | .hbm, ⟨41, _⟩ => ⟨S850000, .i32⟩
  | .hbm, ⟨42, _⟩ => ⟨S850000x1, .i32⟩
  | .hbm, ⟨43, _⟩ => ⟨S850000x128, .f32⟩
  | .hbm, ⟨44, _⟩ => ⟨S_, .f32⟩
  | .hbm, ⟨45, _⟩ => ⟨S50000x128, .f32⟩
  | .hbm, ⟨46, _⟩ => ⟨S850000x1, .i32⟩
  | .hbm, ⟨47, _⟩ => ⟨S50000x128, .f32⟩
  | .hbm, ⟨48, _⟩ => ⟨S1x128, .f32⟩
  | .hbm, ⟨49, _⟩ => ⟨S50000x64, .f32⟩
  | .hbm, ⟨50, _⟩ => ⟨S_, .i32⟩
  | .hbm, ⟨51, _⟩ => ⟨S850000, .i32⟩
  | .hbm, ⟨52, _⟩ => ⟨S850000, .i1⟩
  | .hbm, ⟨53, _⟩ => ⟨S_, .i32⟩
  | .hbm, ⟨54, _⟩ => ⟨S850000, .i32⟩
  | .hbm, ⟨55, _⟩ => ⟨S850000, .i32⟩
  | .hbm, ⟨56, _⟩ => ⟨S850000, .i32⟩
  | .hbm, ⟨57, _⟩ => ⟨S850000x1, .i32⟩
  | .hbm, ⟨58, _⟩ => ⟨S850000x64, .f32⟩
  | .hbm, ⟨59, _⟩ => ⟨S_, .f32⟩
  | .hbm, ⟨60, _⟩ => ⟨S50000x64, .f32⟩
  | .hbm, ⟨61, _⟩ => ⟨S850000x1, .i32⟩
  | .hbm, ⟨62, _⟩ => ⟨S50000x64, .f32⟩
  | .hbm, ⟨63, _⟩ => ⟨S1x64, .f32⟩
  | .hbm, ⟨64, _⟩ => ⟨S50000x64, .f32⟩
  | .local _ .vmem, ⟨0, _⟩ => ⟨S5000x180, .f32⟩
  | .local _ .vmem, ⟨1, _⟩ => ⟨S5000x180, .f32⟩
  | .local _ .vmem, ⟨2, _⟩ => ⟨S180x128, .f32⟩
  | .local _ .vmem, ⟨3, _⟩ => ⟨S1x128, .f32⟩
  | .local _ .vmem, ⟨4, _⟩ => ⟨S128x128, .f32⟩
  | .local _ .vmem, ⟨5, _⟩ => ⟨S5000x1, .f32⟩
  | .local _ .vmem, ⟨6, _⟩ => ⟨S5000x1, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x1, .f32⟩
  | .local _ .vmem, ⟨12, _⟩ => ⟨S5000x1, .f32⟩
  | .local _ .vmem, ⟨13, _⟩ => ⟨S1x128, .f32⟩
  | .local _ .vmem, ⟨14, _⟩ => ⟨S128x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x1, .f32⟩
  | .local _ .vmem, ⟨20, _⟩ => ⟨S5000x1, .f32⟩
  | .local _ .vmem, ⟨21, _⟩ => ⟨S1x64, .f32⟩
  | .local _ .vmem, ⟨22, _⟩ => ⟨S5000x64, .f32⟩
  | .local _ .vmem, ⟨23, _⟩ => ⟨S5000x64, .f32⟩
  | _, _ => ⟨S50000x180, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_8 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem4_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x180 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S180x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  shapeCasts_S128_S1x128 : S128.ShapeCasts S1x128
  inb_S5000x180_S5000x180_0_0 : ∀ a, (![0, 0] : Fin 2 → Nat) a + S5000x180.size a ≤ S5000x180.size a
  h_S5000x180 : 0 < S5000x180.numel
  bitsLt_bf16_f32 : FTy.bits .bf16 < FTy.bits .f32
  inb_S180x128_S180x128_0_0 : ∀ a, (![0, 0] : Fin 2 → Nat) a + S180x128.size a ≤ S180x128.size a
  h_S180x128 : 0 < S180x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S5000x128_S5000x128_0_0 : ∀ a, (![0, 0] : Fin 2 → Nat) a + S5000x128.size a ≤ S5000x128.size a
  h_S5000x128 : 0 < S5000x128.numel
  bcast_S_S50000x128 : S_.BroadcastsInDim S50000x128 (![] : Fin 0 → Fin S50000x128.rank)
  shapeCasts_S5000x128_S5000x128 : S5000x128.ShapeCasts S5000x128
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S850000x1_S850000_n_0_0_1_wf : ScatterDims.WF S50000 S850000x1 S850000 [] [0] [0] 1
  dot_S5000x180_S180x128_S5000x128_1_0_0_1_n_n_wf : DotDims.WF S5000x180 S180x128 S5000x128 [1] [0] [0] [1] [] []
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x180.size a ≤ S50000x180.size a
  hwx0_0 : ∀ i : grid0.Coords, EltTy.bits .f32 = 32 ∨ (Rect.block (s := S50000x180) S5000x180.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S180x128.size a ≤ S180x128.size a
  hwx0_1 : ∀ i : grid0.Coords, EltTy.bits .f32 = 32 ∨ (Rect.block (s := S180x128) S180x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x1.size a ≤ S50000x1.size a
  hwx0_4 : ∀ i : grid0.Coords, EltTy.bits .f32 = 32 ∨ (Rect.block (s := S50000x1) S5000x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S50000x64.size a
  hwx2_3 : ∀ i : grid2.Coords, EltTy.bits .f32 = 32 ∨ (Rect.block (s := S50000x64) S5000x64.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x180_S180x128_S5000x128_1_0_0_1_n_n : DotDims S5000x180 S180x128 S5000x128 where
  lhsContracting := [1]
  rhsContracting := [0]
  lhsNonContracting := [0]
  rhsNonContracting := [1]
  lhsBatch := []
  rhsBatch := []
  wf := dot_S5000x180_S180x128_S5000x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x180.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S180x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S5000x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v29) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v31) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v41) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v43) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x180 : Shape := ⟨2, ![50000, 180]⟩
abbrev S180x128 : Shape := ⟨2, ![180, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S2x800000 : Shape := ⟨2, ![2, 800000]⟩
abbrev S1x800000 : Shape := ⟨2, ![1, 800000]⟩
abbrev S800000 : Shape := ⟨1, ![800000]⟩
abbrev S50000x128 : Shape := ⟨2, ![50000, 128]⟩
abbrev S1x128 : Shape := ⟨2, ![1, 128]⟩
abbrev S_ : Shape := ⟨0, ![]⟩
abbrev S50000 : Shape := ⟨1, ![50000]⟩
abbrev S850000 : Shape := ⟨1, ![850000]⟩
abbrev S850000x1 : Shape := ⟨2, ![850000, 1]⟩
abbrev S850000x128 : Shape := ⟨2, ![850000, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 140
  | .vmem => 0
  | .smem => 0
  | _ => 0

abbrev hbmTy0_0 (i : Nat) : BufTy := match i % 128 with
  | 0 => ⟨S50000x180, .f32⟩
  | 1 => ⟨S180x128, .f32⟩
  | 2 => ⟨S128, .f32⟩
  | 3 => ⟨S128x128, .f32⟩
  | 4 => ⟨S128, .f32⟩
  | 5 => ⟨S128x64, .f32⟩
  | 6 => ⟨S64, .f32⟩
  | 7 => ⟨S2x800000, .i32⟩
  | 8 => ⟨S1x800000, .i32⟩
  | 9 => ⟨S800000, .i32⟩
  | 10 => ⟨S1x800000, .i32⟩
  | 11 => ⟨S800000, .i32⟩
  | 12 => ⟨S50000x128, .f32⟩
  | 13 => ⟨S1x128, .f32⟩
  | 14 => ⟨S50000x128, .f32⟩
  | 15 => ⟨S50000x128, .f32⟩
  | 16 => ⟨S_, .f32⟩
  | 17 => ⟨S50000x128, .f32⟩
  | 18 => ⟨S50000x128, .f32⟩
  | 19 => ⟨S50000, .i32⟩
  | 20 => ⟨S850000, .i32⟩
  | 21 => ⟨S850000, .i32⟩
  | 22 => ⟨S50000x128, .f32⟩
  | 23 => ⟨S_, .f32⟩
  | 24 => ⟨S850000, .f32⟩
  | 25 => ⟨S_, .f32⟩
  | 26 => ⟨S50000, .f32⟩
  | 27 => ⟨S850000x1, .i32⟩
  | 28 => ⟨S50000, .f32⟩
  | 29 => ⟨S_, .f32⟩
  | 30 => ⟨S50000, .f32⟩
  | 31 => ⟨S50000, .i1⟩
  | 32 => ⟨S_, .f32⟩
  | 33 => ⟨S50000, .f32⟩
  | 34 => ⟨S50000, .f32⟩
  | 35 => ⟨S50000, .f32⟩
  | 36 => ⟨S_, .f32⟩
  | 37 => ⟨S_, .f32⟩
  | 38 => ⟨S50000, .f32⟩
  | 39 => ⟨S50000, .f32⟩
  | 40 => ⟨S_, .i32⟩
  | 41 => ⟨S850000, .i32⟩
  | 42 => ⟨S850000, .i1⟩
  | 43 => ⟨S_, .i32⟩
  | 44 => ⟨S850000, .i32⟩
  | 45 => ⟨S850000, .i32⟩
  | 46 => ⟨S850000, .i32⟩
  | 47 => ⟨S850000x1, .i32⟩
  | 48 => ⟨S850000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000, .f32⟩
  | 58 => ⟨S850000, .f32⟩
  | 59 => ⟨S_, .i32⟩
  | 60 => ⟨S850000, .i32⟩
  | 61 => ⟨S850000, .i1⟩
  | 62 => ⟨S_, .i32⟩
  | 63 => ⟨S850000, .i32⟩
  | 64 => ⟨S850000, .i32⟩
  | 65 => ⟨S850000, .i32⟩
  | 66 => ⟨S850000x1, .i32⟩
  | 67 => ⟨S850000x128, .f32⟩
  | 68 => ⟨S850000x1, .f32⟩
  | 69 => ⟨S850000x128, .f32⟩
  | 70 => ⟨S850000x128, .f32⟩
  | 71 => ⟨S_, .f32⟩
  | 72 => ⟨S50000x128, .f32⟩
  | 73 => ⟨S850000x1, .i32⟩
  | 74 => ⟨S50000x128, .f32⟩
  | 75 => ⟨S1x128, .f32⟩
  | 76 => ⟨S50000x128, .f32⟩
  | 77 => ⟨S50000x128, .f32⟩
  | 78 => ⟨S_, .f32⟩
  | 79 => ⟨S50000x128, .f32⟩
  | 80 => ⟨S50000x128, .f32⟩
  | 81 => ⟨S50000, .i32⟩
  | 82 => ⟨S850000, .i32⟩
  | 83 => ⟨S850000, .i32⟩
  | 84 => ⟨S50000x64, .f32⟩
  | 85 => ⟨S_, .f32⟩
  | 86 => ⟨S850000, .f32⟩
  | 87 => ⟨S_, .f32⟩
  | 88 => ⟨S50000, .f32⟩
  | 89 => ⟨S850000x1, .i32⟩
  | 90 => ⟨S50000, .f32⟩
  | 91 => ⟨S_, .f32⟩
  | 92 => ⟨S50000, .f32⟩
  | 93 => ⟨S50000, .i1⟩
  | 94 => ⟨S_, .f32⟩
  | 95 => ⟨S50000, .f32⟩
  | 96 => ⟨S50000, .f32⟩
  | 97 => ⟨S50000, .f32⟩
  | 98 => ⟨S_, .f32⟩
  | 99 => ⟨S_, .f32⟩
  | 100 => ⟨S50000, .f32⟩
  | 101 => ⟨S50000, .f32⟩
  | 102 => ⟨S_, .i32⟩
  | 103 => ⟨S850000, .i32⟩
  | 104 => ⟨S850000, .i1⟩
  | 105 => ⟨S_, .i32⟩
  | 106 => ⟨S850000, .i32⟩
  | 107 => ⟨S850000, .i32⟩
  | 108 => ⟨S850000, .i32⟩
  | 109 => ⟨S850000x1, .i32⟩
  | 110 => ⟨S850000, .f32⟩
  | 111 => ⟨S_, .i32⟩
  | 112 => ⟨S850000, .i32⟩
  | 113 => ⟨S850000, .i1⟩
  | 114 => ⟨S_, .i32⟩
  | 115 => ⟨S850000, .i32⟩
  | 116 => ⟨S850000, .i32⟩
  | 117 => ⟨S850000, .i32⟩
  | 118 => ⟨S850000x1, .i32⟩
  | 119 => ⟨S850000, .f32⟩
  | 120 => ⟨S850000, .f32⟩
  | 121 => ⟨S_, .i32⟩
  | 122 => ⟨S850000, .i32⟩
  | 123 => ⟨S850000, .i1⟩
  | 124 => ⟨S_, .i32⟩
  | 125 => ⟨S850000, .i32⟩
  | 126 => ⟨S850000, .i32⟩
  | 127 => ⟨S850000, .i32⟩
  | _ => ⟨S50000x180, .f32⟩

abbrev hbmTy0_1 (i : Nat) : BufTy := match i % 128 with
  | 0 => ⟨S850000x1, .i32⟩
  | 1 => ⟨S850000x64, .f32⟩
  | 2 => ⟨S850000x1, .f32⟩
  | 3 => ⟨S850000x64, .f32⟩
  | 4 => ⟨S850000x64, .f32⟩
  | 5 => ⟨S_, .f32⟩
  | 6 => ⟨S50000x64, .f32⟩
  | 7 => ⟨S850000x1, .i32⟩
  | 8 => ⟨S50000x64, .f32⟩
  | 9 => ⟨S1x64, .f32⟩
  | 10 => ⟨S50000x64, .f32⟩
  | 11 => ⟨S50000x64, .f32⟩
  | _ => ⟨S50000x180, .f32⟩

abbrev hbmTy (i : Nat) : BufTy := match i / 128 with
  | 0 => hbmTy0_0 i
  | 1 => hbmTy0_1 i
  | _ => ⟨S50000x180, .f32⟩

abbrev bufTy : (tb : Table) → Fin (tcTables nBuf tb) → BufTy
  | .hbm, ⟨i, _⟩ => hbmTy i
  | _, _ => ⟨S50000x180, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call0_cst : Ref sig .tc := ⟨.hbm, 16, rfl⟩
abbrev main_call0_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_cst_2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_call1_v0 : Ref sig .tc := ⟨.hbm, 37, rfl⟩
abbrev main_call1_v1 : Ref sig .tc := ⟨.hbm, 38, rfl⟩
abbrev main_v22 : Ref sig .tc := ⟨.hbm, 39, rfl⟩
abbrev main_c : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_5 : Ref sig .tc := ⟨.hbm, 49, rfl⟩
abbrev main_v30 : Ref sig .tc := ⟨.hbm, 50, rfl⟩
abbrev main_v31 : Ref sig .tc := ⟨.hbm, 51, rfl⟩
abbrev main_c_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_7 : Ref sig .tc := ⟨.hbm, 59, rfl⟩
abbrev main_v38 : Ref sig .tc := ⟨.hbm, 60, rfl⟩
abbrev main_v39 : Ref sig .tc := ⟨.hbm, 61, rfl⟩
abbrev main_c_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_9 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_call2_cst : Ref sig .tc := ⟨.hbm, 78, rfl⟩
abbrev main_call2_v0 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_10 : Ref sig .tc := ⟨.hbm, 85, rfl⟩
abbrev main_v59 : Ref sig .tc := ⟨.hbm, 86, rfl⟩
abbrev main_cst_11 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_12 : Ref sig .tc := ⟨.hbm, 91, rfl⟩
abbrev main_v63 : Ref sig .tc := ⟨.hbm, 92, rfl⟩
abbrev main_v64 : Ref sig .tc := ⟨.hbm, 93, rfl⟩
abbrev main_cst_13 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_14 : Ref sig .tc := ⟨.hbm, 98, rfl⟩
abbrev main_call3_v0 : Ref sig .tc := ⟨.hbm, 99, rfl⟩
abbrev main_call3_v1 : Ref sig .tc := ⟨.hbm, 100, rfl⟩
abbrev main_v68 : Ref sig .tc := ⟨.hbm, 101, rfl⟩
abbrev main_c_15 : Ref sig .tc := ⟨.hbm, 102, rfl⟩
abbrev main_v69 : Ref sig .tc := ⟨.hbm, 103, rfl⟩
abbrev main_v70 : Ref sig .tc := ⟨.hbm, 104, rfl⟩
abbrev main_c_16 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_c_17 : Ref sig .tc := ⟨.hbm, 111, rfl⟩
abbrev main_v76 : Ref sig .tc := ⟨.hbm, 112, rfl⟩
abbrev main_v77 : Ref sig .tc := ⟨.hbm, 113, rfl⟩
abbrev main_c_18 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_c_19 : Ref sig .tc := ⟨.hbm, 121, rfl⟩
abbrev main_v84 : Ref sig .tc := ⟨.hbm, 122, rfl⟩
abbrev main_v85 : Ref sig .tc := ⟨.hbm, 123, rfl⟩
abbrev main_c_20 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_cst_21 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  dot_S50000x180_S180x128_S50000x128_1_0_0_1_n_n_wf : DotDims.WF S50000x180 S180x128 S50000x128 [1] [0] [0] [1] [] []
  dot_S50000x128_S128x128_S50000x128_1_0_0_1_n_n_wf : DotDims.WF S50000x128 S128x128 S50000x128 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def dot_S50000x180_S180x128_S50000x128_1_0_0_1_n_n : DotDims S50000x180 S180x128 S50000x128 where
  lhsContracting := [1]
  rhsContracting := [0]
  lhsNonContracting := [0]
  rhsNonContracting := [1]
  lhsBatch := []
  rhsBatch := []
  wf := dot_S50000x180_S180x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.KRun.lean ====
/-
  The idealized kernel program's run, with its result named.

  The program is three kernel regions among stretches of host operations. Its frame certificate runs the regions one
  after another and records, at every boundary, what each buffer holds (`Gen.W0` … `Gen.W8`: a host stretch applies its
  operations, a region replaces its arrays by what its write-backs leave). The same run, read at the result buffer as
  well as at the arguments: every weakly fair execution terminates, nothing faults, the result buffer holds what the
  last boundary `Gen.W8` records for it, and the arguments end as launched.
-/
import proofs.«122493_j65197603553735_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result buffer read: it ends at the last boundary's contents, and the arguments as launched. -/
theorem run_result : θ_run defs (onTc (τ := τ) (main (F := F))) ⟨m, fun _ => 0, ρ⟩ (fun r => ∀ c : Dev nD,
      r.2.mem ((c.tc : Thread nD τ).loc main_v43) = W8 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v43 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end Cert.KernelIdeal.KRun

end
-- ==== Proof.KGlue0.lean ====
/-
  What the first kernel region finds in its buffers.

  Before the first region the host prepares, from the edge list alone, the source and target index vectors (with one
  self loop per node appended) and the per-node normalising factor, and reshapes the first bias to a row. Each is the
  same composition of operations as the reference applies, so each is stated as the reference's own term of the
  arguments: the index vectors, the factor vector (reshaped here to one column), the bias (reshaped to one row). The
  arguments themselves are untouched.
-/
import proofs.«122493_j65197603553735_2_alg».proof.Proof.Gen.KernelIdeal.Frame
import proofs.«122493_j65197603553735_2_alg».proof.Proof.RefRead
import Idealize.ShloMosaic.Lib.StableHlo.Run

set_option maxRecDepth 16384
set_option maxHeartbeats 4000000

noncomputable section

namespace Cert.KernelIdeal.Glue0

open Cert.KernelIdeal Cert.KernelIdeal.Gen
open Idealize.ShloMosaic Idealize.ShloMosaic.TcCoe Idealize.SL.Sem Idealize.ShloMosaic.StableHlo
open Cert.ReferenceIdeal.Read

variable {F : FTy → Type} [FloatOps F]
variable (m : (ℓ : Loc nD τ sig) → Buf (Elt F) ℓ) (ρ : Dev nD → PrngReg)

/-- The normalising factors as one column. -/
theorem v17 (c : Dev nD) : V3 m ρ c main_v17
    = shapeCast S50000x1 (val_main_v22 (F := F) (m ((c : Thread nD τ).loc main_arg7))) shapeCasts_S50000_S50000x1 := by
  show StableHlo.after hostOps0_2 (StableHlo.after hostOps0_1 (StableHlo.after hostOps0 (W0 m ρ c))) (Proc.devRef .tc main_v17) = _
  after_results
  rfl

/-- The first bias as one row. -/
theorem v18 (c : Dev nD) : V3 m ρ c main_v18
    = shapeCast S1x128 (m ((c : Thread nD τ).loc main_arg2)) shapeCasts_S128_S1x128 := by
  show StableHlo.after hostOps0_2 (StableHlo.after hostOps0_1 (StableHlo.after hostOps0 (W0 m ρ c))) (Proc.devRef .tc main_v18) = _
  after_results
  rfl

/-- The source index vector. -/
theorem v5 (c : Dev nD) : W3 m ρ c (Proc.devRef .tc main_v5) = val_main_v10 (F := F) (m ((c : Thread nD τ).loc main_arg7)) := by
  show StableHlo.after hostOps0_2 (StableHlo.after hostOps0_1 (StableHlo.after hostOps0 (W0 m ρ c))) (Proc.devRef .tc main_v5) = _
  after_results
  rfl

/-- The target index vector. -/
theorem v6 (c : Dev nD) : W3 m ρ c (Proc.devRef .tc main_v6) = val_main_v11 (F := F) (m ((c : Thread nD τ).loc main_arg7)) := by
  show StableHlo.after hostOps0_2 (StableHlo.after hostOps0_1 (StableHlo.after hostOps0 (W0 m ρ c))) (Proc.devRef .tc main_v6) = _
  after_results
  rfl

theorem arg0 (c : Dev nD) : V3 m ρ c main_arg0 = m ((c : Thread nD τ).loc main_arg0) := by
  show StableHlo.after hostOps0_2 (StableHlo.after hostOps0_1 (StableHlo.after hostOps0 (W0 m ρ c))) (Proc.devRef .tc main_arg0) = _
  after_results
theorem arg1 (c : Dev nD) : V3 m ρ c main_arg1 = m ((c : Thread nD τ).loc main_arg1) := by
  show StableHlo.after hostOps0_2 (StableHlo.after hostOps0_1 (StableHlo.after hostOps0 (W0 m ρ c))) (Proc.devRef .tc main_arg1) = _
  after_results
theorem arg3 (c : Dev nD) : V3 m ρ c main_arg3 = m ((c : Thread nD τ).loc main_arg3) := by
  show StableHlo.after hostOps0_2 (StableHlo.after hostOps0_1 (StableHlo.after hostOps0 (W0 m ρ c))) (Proc.devRef .tc main_arg3) = _
  after_results
theorem arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results
theorem arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results
theorem arg6 (c : Dev nD) : W3 m ρ c (Proc.devRef .tc main_arg6) = m ((c : Thread nD τ).loc main_arg6) := by
  show StableHlo.after hostOps0_2 (StableHlo.after hostOps0_1 (StableHlo.after hostOps0 (W0 m ρ c))) (Proc.devRef .tc main_arg6) = _
  after_results

end Cert.KernelIdeal.Glue0

end
-- ==== Proof.KGlue1.lean ====
/-
  What the second and third kernel regions find in their buffers, and where the result ends.

  A region replaces its output array and leaves every other buffer as it found it; a host stretch writes its own
  results and leaves the rest. So the index vectors, the factor column and the arguments travel unchanged from the
  first region's entry to wherever they are read, and between two regions the host sums, over the edges into each
  node, the source rows of the previous region's output (a row gather at the wrapped source indices, then a
  scatter-add at the target indices into zeros), and reshapes the next bias to a row.
-/
import proofs.«122493_j65197603553735_2_alg».proof.Proof.Gen.KernelIdeal.Frame
import proofs.«122493_j65197603553735_2_alg».proof.Proof.RefRead
import proofs.«122493_j65197603553735_2_alg».proof.Proof.KGlue0
import Idealize.ShloMosaic.Lib.StableHlo.Run

set_option maxRecDepth 16384
set_option maxHeartbeats 4000000

noncomputable section

namespace Cert.KernelIdeal.Glue1

open Cert.KernelIdeal Cert.KernelIdeal.Gen
open Idealize.ShloMosaic Idealize.ShloMosaic.TcCoe Idealize.SL.Sem Idealize.ShloMosaic.StableHlo
open Cert.ReferenceIdeal.Read

variable {F : FTy → Type} [FloatOps F]
variable (m : (ℓ : Loc nD τ sig) → Buf (Elt F) ℓ) (ρ : Dev nD → PrngReg)

/-- A buffer that no operation of a stretch writes keeps its contents. -/
macro "not_written" ops:ident : tactic =>
  `(tactic| exact StableHlo.after_of_forall_not_mem _ _ (List.forall_iff_forall_mem.mp (by
      simp only [$ops:ident, List.Forall, StableHlo.nullary_writes, StableHlo.unary_writes, StableHlo.binary_writes,
        StableHlo.ternary_writes, StableHlo.quaternary_writes, StableHlo.reshape_writes, Finset.mem_singleton]
      repeat' apply And.intro
      all_goals exact StableHlo.devRef_ne_of_ne (by decide))))

/-! ## After the first region -/

theorem w4_v17 (c : Dev nD) : W4 m ρ c (Proc.devRef .tc main_v17) = W3 m ρ c (Proc.devRef .tc main_v17) :=
  (W4_arr m ρ c 4).trans (((dat0 (V3 m ρ) c).arrAt_in 4 rfl _).trans (A_eq0 (V3 m ρ) c 4))
theorem w4_v5 (c : Dev nD) : W4 m ρ c (Proc.devRef .tc main_v5) = W3 m ρ c (Proc.devRef .tc main_v5) :=
  W4_of_ne m ρ c main_v5 (by decide)
theorem w4_v6 (c : Dev nD) : W4 m ρ c (Proc.devRef .tc main_v6) = W3 m ρ c (Proc.devRef .tc main_v6) :=
  W4_of_ne m ρ c main_v6 (by decide)
theorem w4_arg4 (c : Dev nD) : W4 m ρ c (Proc.devRef .tc main_arg4) = W3 m ρ c (Proc.devRef .tc main_arg4) :=
  W4_of_ne m ρ c main_arg4 (by decide)
theorem w4_arg5 (c : Dev nD) : W4 m ρ c (Proc.devRef .tc main_arg5) = W3 m ρ c (Proc.devRef .tc main_arg5) :=
  W4_of_ne m ρ c main_arg5 (by decide)
theorem w4_arg6 (c : Dev nD) : W4 m ρ c (Proc.devRef .tc main_arg6) = W3 m ρ c (Proc.devRef .tc main_arg6) :=
  W4_of_ne m ρ c main_arg6 (by decide)

/-! ## At the second region's entry -/

/-- The first edge sum: the rows of the first region's output gathered at the sources and summed at the targets. -/
theorem v29 (c : Dev nD) : V5 m ρ c main_v29
    = Host.scatterAdd scatter_S50000x128_S850000x1_S850000x128_1_0_0_1 (val_main_v48 (F := F))
        (val_main_v49 (F := F) (m ((c : Thread nD τ).loc main_arg7)))
        (Host.gather gather_S50000x128_S850000x1_S850000x128_1_0_n_n_0_1_1128
          (W4 m ρ c (Proc.devRef .tc main_v19) : (⟨S50000x128, .f32⟩ : BufTy).Contents (Elt F))
          (val_main_v43 (F := F) (m ((c : Thread nD τ).loc main_arg7)))) := by
  show StableHlo.after hostOps1 (W4 m ρ c) (Proc.devRef .tc main_v29) = _
  after_results
  rw [w4_v5, w4_v6, Glue0.v5, Glue0.v6]
  rfl

/-- The second bias as one row. -/
theorem v30 (c : Dev nD) : V5 m ρ c main_v30
    = shapeCast S1x128 (m ((c : Thread nD τ).loc main_arg4)) shapeCasts_S128_S1x128 := by
  show StableHlo.after hostOps1 (W4 m ρ c) (Proc.devRef .tc main_v30) = _
  after_results
  rw [w4_arg4, Glue0.arg4]
  rfl

theorem w5_v17 (c : Dev nD) : W5 m ρ c (Proc.devRef .tc main_v17) = W3 m ρ c (Proc.devRef .tc main_v17) :=
  (by not_written hostOps1 : StableHlo.after hostOps1 (W4 m ρ c) (Proc.devRef .tc main_v17) = W4 m ρ c (Proc.devRef .tc main_v17)).trans (w4_v17 m ρ c)
theorem v5_17 (c : Dev nD) : V5 m ρ c main_v17 = V3 m ρ c main_v17 := w5_v17 m ρ c
theorem v5_arg5 (c : Dev nD) : V5 m ρ c main_arg5 = m ((c : Thread nD τ).loc main_arg5) :=
  ((by not_written hostOps1 : StableHlo.after hostOps1 (W4 m ρ c) (Proc.devRef .tc main_arg5) = W4 m ρ c (Proc.devRef .tc main_arg5)).trans (w4_arg5 m ρ c)).trans (Glue0.arg5 m ρ c)
theorem w5_v5 (c : Dev nD) : W5 m ρ c (Proc.devRef .tc main_v5) = val_main_v10 (F := F) (m ((c : Thread nD τ).loc main_arg7)) :=
  ((by not_written hostOps1 : StableHlo.after hostOps1 (W4 m ρ c) (Proc.devRef .tc main_v5) = W4 m ρ c (Proc.devRef .tc main_v5)).trans (w4_v5 m ρ c)).trans (Glue0.v5 m ρ c)
theorem w5_v6 (c : Dev nD) : W5 m ρ c (Proc.devRef .tc main_v6) = val_main_v11 (F := F) (m ((c : Thread nD τ).loc main_arg7)) :=
  ((by not_written hostOps1 : StableHlo.after hostOps1 (W4 m ρ c) (Proc.devRef .tc main_v6) = W4 m ρ c (Proc.devRef .tc main_v6)).trans (w4_v6 m ρ c)).trans (Glue0.v6 m ρ c)
theorem w5_arg6 (c : Dev nD) : W5 m ρ c (Proc.devRef .tc main_arg6) = m ((c : Thread nD τ).loc main_arg6) :=
  ((by not_written hostOps1 : StableHlo.after hostOps1 (W4 m ρ c) (Proc.devRef .tc main_arg6) = W4 m ρ c (Proc.devRef .tc main_arg6)).trans (w4_arg6 m ρ c)).trans (Glue0.arg6 m ρ c)

/-! ## After the second region -/

theorem w6_v17 (c : Dev nD) : W6 m ρ c (Proc.devRef .tc main_v17) = W3 m ρ c (Proc.devRef .tc main_v17) :=
  ((W6_arr m ρ c 1).trans (((dat1 (V5 m ρ) c).arrAt_in 1 rfl _).trans (A_eq1 (V5 m ρ) c 1))).trans (w5_v17 m ρ c)
theorem w6_v5 (c : Dev nD) : W6 m ρ c (Proc.devRef .tc main_v5) = val_main_v10 (F := F) (m ((c : Thread nD τ).loc main_arg7)) :=
  (W6_of_ne m ρ c main_v5 (by decide)).trans (w5_v5 m ρ c)
theorem w6_v6 (c : Dev nD) : W6 m ρ c (Proc.devRef .tc main_v6) = val_main_v11 (F := F) (m ((c : Thread nD τ).loc main_arg7)) :=
  (W6_of_ne m ρ c main_v6 (by decide)).trans (w5_v6 m ρ c)
theorem w6_arg6 (c : Dev nD) : W6 m ρ c (Proc.devRef .tc main_arg6) = m ((c : Thread nD τ).loc main_arg6) :=
  (W6_of_ne m ρ c main_arg6 (by decide)).trans (w5_arg6 m ρ c)

/-! ## At the third region's entry -/

/-- The second edge sum. -/
theorem v41 (c : Dev nD) : V7 m ρ c main_v41
    = Host.scatterAdd scatter_S50000x64_S850000x1_S850000x64_1_0_0_1 (val_main_v94 (F := F))
        (val_main_v95 (F := F) (m ((c : Thread nD τ).loc main_arg7)))
        (Host.gather gather_S50000x64_S850000x1_S850000x64_1_0_n_n_0_1_164
          (W6 m ρ c (Proc.devRef .tc main_v31) : (⟨S50000x64, .f32⟩ : BufTy).Contents (Elt F))
          (val_main_v89 (F := F) (m ((c : Thread nD τ).loc main_arg7)))) := by
  show StableHlo.after hostOps2 (W6 m ρ c) (Proc.devRef .tc main_v41) = _
  after_results
  rw [w6_v5, w6_v6]
  rfl

/-- The third bias as one row. -/
theorem v42 (c : Dev nD) : V7 m ρ c main_v42
    = shapeCast S1x64 (m ((c : Thread nD τ).loc main_arg6)) shapeCasts_S64_S1x64 := by
  show StableHlo.after hostOps2 (W6 m ρ c) (Proc.devRef .tc main_v42) = _
  after_results
  rw [w6_arg6]
  rfl

theorem v7_17 (c : Dev nD) : V7 m ρ c main_v17 = V3 m ρ c main_v17 :=
  (by not_written hostOps2 : StableHlo.after hostOps2 (W6 m ρ c) (Proc.devRef .tc main_v17) = W6 m ρ c (Proc.devRef .tc main_v17)).trans (w6_v17 m ρ c)

end Cert.KernelIdeal.Glue1

end
-- ==== Proof.GcnSpec.lean ====
/-
  The two-layer graph convolution, element by element over the extended reals.

  A node feature matrix x (50000 × 180) goes through a dense layer, h = relu(x·W₀ + b₀), and two graph
  convolutions over one edge list with self loops. With d r the normalising factor of node r (the inverse square
  root of its in-degree), a convolution of features H with weights W and bias b is, at node j,
      Σ over edges e into j of (H·W)[source e] · (d(source e) · d(j))  +  b.
  Since d(j) does not depend on the edge, it can be taken out of the sum:
      (Σ over edges e into j of ((H·W)[source e] · d(source e))) · d(j)  +  b,
  so the per-node dense work splits into three row-local stages around the two edge sums. This module states the
  three row-local stages as functions of whole arrays; every entry depends on ONE row of the node arrays.
-/
import Idealize.ShloMosaic.PureOps.Ideal
import Idealize.ShloMosaic.PureOps.Ideal.Laws
import Idealize.ShloMosaic.Lib.ValueIdx

noncomputable section

open scoped BigOperators

namespace Cert.Gcn

open Idealize.ShloMosaic Idealize.ShloMosaic.ValueIdx

/-- A rank-2 array of extended reals over literal extents. -/
abbrev Arr (n0 n1 : Nat) : Type := (⟨2, ![n0, n1]⟩ : Shape).Idx → EReal

/-- The extended real that the all-zero f32 word denotes (it is 0; kept as the word, so that the two programs'
    equal literals meet without being evaluated). -/
abbrev zw : EReal := Ideal.ofBits .f32 0x00000000#32

/-- Entry (r, k) of the dense layer relu(x·W₀ + b₀). -/
def hidden (x : Arr 50000 180) (w0 : Arr 180 128) (b0 : Arr 1 128) (r : Fin 50000) (k : Fin 128) : EReal :=
  max (∑ l : Fin 180, x (ix2 r l) * w0 (ix2 l k) + b0 (ix2 (0 : Fin 1) k)) zw

/-- Entry (r, c) of (relu(x·W₀ + b₀)·W₁) with row r scaled by d r: what the first edge sum gathers. -/
def scaledXW1At (x : Arr 50000 180) (w0 : Arr 180 128) (b0 : Arr 1 128) (w1 : Arr 128 128) (d : Arr 50000 1)
    (r : Fin 50000) (c : Fin 128) : EReal :=
  (∑ k : Fin 128, hidden x w0 b0 r k * w1 (ix2 k c)) * d (ix2 r (0 : Fin 1))

/-- The first row-local stage as a whole array. -/
def scaledXW1 (x : Arr 50000 180) (w0 : Arr 180 128) (b0 : Arr 1 128) (w1 : Arr 128 128) (d : Arr 50000 1) :
    Arr 50000 128 :=
  fun i => scaledXW1At x w0 b0 w1 d (i 0) (i 1)

/-- Entry (r, c) of (relu(a·d + b₁)·W₂) with row r scaled by d r, where a is the first edge sum: what the second
    edge sum gathers. -/
def scaledXW2At (a : Arr 50000 128) (d : Arr 50000 1) (b1 : Arr 1 128) (w2 : Arr 128 64)
    (r : Fin 50000) (c : Fin 64) : EReal :=
  (∑ k : Fin 128, max (a (ix2 r k) * d (ix2 r (0 : Fin 1)) + b1 (ix2 (0 : Fin 1) k)) zw * w2 (ix2 k c))
    * d (ix2 r (0 : Fin 1))

/-- The second row-local stage as a whole array. -/
def scaledXW2 (a : Arr 50000 128) (d : Arr 50000 1) (b1 : Arr 1 128) (w2 : Arr 128 64) : Arr 50000 64 :=
  fun i => scaledXW2At a d b1 w2 (i 0) (i 1)

/-- Entry (r, c) of the last stage: the second edge sum a, row r scaled by d r, plus the bias. -/
def finalOutAt (a : Arr 50000 64) (d : Arr 50000 1) (b2 : Arr 1 64) (r : Fin 50000) (c : Fin 64) : EReal :=
  a (ix2 r c) * d (ix2 r (0 : Fin 1)) + b2 (ix2 (0 : Fin 1) c)

/-- The last row-local stage as a whole array. -/
def finalOut (a : Arr 50000 64) (d : Arr 50000 1) (b2 : Arr 1 64) : Arr 50000 64 :=
  fun i => finalOutAt a d b2 (i 0) (i 1)

end Cert.Gcn

end
-- ==== Proof.Region0.lean ====
/-
  The first row-local stage, block by block.

  The region runs over the 50000 node rows in 10 blocks of 5000 rows: grid point t stages rows 5000·t … 5000·t+4999 of
  the feature matrix x (50000 × 180) and of the degree column d (50000 × 1), the whole of the weights W₀ (180 × 128),
  W₁ (128 × 128) and of the bias row b₀ (1 × 128), and writes rows 5000·t … 5000·t+4999 of the output (50000 × 128).
  Entry (r, c) of the output is
      (Σ_k relu(Σ_l x[r, l] · W₀[l, k] + b₀[0, k]) · W₁[k, c]) · d[r, 0],
  which depends on row r of x and of d only. So block t of the output array is the body's arithmetic on block t of x
  and d: the entry at row p of the block is the formula at row 5000·t + p of the arrays. The ten blocks tile the rows
  (row r lies in the block of point r / 5000), so the array the region leaves is the formula at every entry.
-/
import proofs.«122493_j65197603553735_2_alg».proof.Proof.Gen.KernelIdeal.Frame
import proofs.«122493_j65197603553735_2_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered: any
variable (V : (c : Dev nD) → (b : Ref sig .tc) → Buf (Elt Ideal) ((c : Thread nD τ).loc b))

/-! ## The two products of a block, entry by entry -/

theorem dot180_lhs0 (i : S5000x128.Idx) (q : dot_S5000x180_S180x128_S5000x128_1_0_0_1_n_n.contr.Idx) : (dot_S5000x180_S180x128_S5000x128_1_0_0_1_n_n.lhsIdx i q 0).val = (i 0).val := by
  unfold DotDims.lhsIdx
  rw [dif_neg (show ¬(0 : Fin S5000x180.rank) ∈ dot_S5000x180_S180x128_S5000x128_1_0_0_1_n_n.lhsBatch by decide), dif_pos (show (0 : Fin S5000x180.rank) ∈ dot_S5000x180_S180x128_S5000x128_1_0_0_1_n_n.lhsNonContracting by decide)]
  rfl
theorem dot180_lhs1 (i : S5000x128.Idx) (q : dot_S5000x180_S180x128_S5000x128_1_0_0_1_n_n.contr.Idx) : (dot_S5000x180_S180x128_S5000x128_1_0_0_1_n_n.lhsIdx i q 1).val = (q ⟨0, by decide⟩).val :=
  dot_S5000x180_S180x128_S5000x128_1_0_0_1_n_n.lhsIdx_val_of_single rfl i q
theorem dot180_rhs0 (i : S5000x128.Idx) (q : dot_S5000x180_S180x128_S5000x128_1_0_0_1_n_n.contr.Idx) : (dot_S5000x180_S180x128_S5000x128_1_0_0_1_n_n.rhsIdx i q 0).val = (q ⟨0, by decide⟩).val :=
  dot_S5000x180_S180x128_S5000x128_1_0_0_1_n_n.rhsIdx_val_of_single rfl i q
theorem dot180_rhs1 (i : S5000x128.Idx) (q : dot_S5000x180_S180x128_S5000x128_1_0_0_1_n_n.contr.Idx) : (dot_S5000x180_S180x128_S5000x128_1_0_0_1_n_n.rhsIdx i q 1).val = (i 1).val := by
  unfold DotDims.rhsIdx
  rw [dif_neg (show ¬(1 : Fin S180x128.rank) ∈ dot_S5000x180_S180x128_S5000x128_1_0_0_1_n_n.rhsBatch by decide), dif_pos (show (1 : Fin S180x128.rank) ∈ dot_S5000x180_S180x128_S5000x128_1_0_0_1_n_n.rhsNonContracting by decide)]
  rfl

/-- Entry (p, k) of a 5000 × 180 block times a 180 × 128 matrix, accumulated into zero: the sum over the 180 columns. -/
theorem dot180_apply (a : FVec Ideal S5000x180 .bf16) (b : FVec Ideal S180x128 .bf16) (p : Fin 5000) (k : Fin 128) :
    matmul dot_S5000x180_S180x128_S5000x128_1_0_0_1_n_n none a b (constant (F := Ideal) S5000x128 .f32 0x00000000#32) (ix2 p k)
      = ∑ l : Fin 180, a (ix2 p l) * b (ix2 l k) := by
  show FloatOps.matmul dot_S5000x180_S180x128_S5000x128_1_0_0_1_n_n none a b (constant (F := Ideal) S5000x128 .f32 0x00000000#32) (ix2 p k) = _
  rw [Ideal.matmul_constant_zero_apply, ← Equiv.sum_comp (contrEquiv1 dot_S5000x180_S180x128_S5000x128_1_0_0_1_n_n 180 rfl rfl).symm]
  refine Finset.sum_congr rfl fun l _ => ?_
  have hl := contrEquiv1_symm_val dot_S5000x180_S180x128_S5000x128_1_0_0_1_n_n 180 rfl rfl l
  have el : dot_S5000x180_S180x128_S5000x128_1_0_0_1_n_n.lhsIdx (ix2 p k) ((contrEquiv1 dot_S5000x180_S180x128_S5000x128_1_0_0_1_n_n 180 rfl rfl).symm l) = ix2 p l :=
    funext fun a => Fin.ext (by
      match a with
      | ⟨0, _⟩ => exact dot180_lhs0 _ _
      | ⟨1, _⟩ => exact (dot180_lhs1 _ _).trans hl)
  have er : dot_S5000x180_S180x128_S5000x128_1_0_0_1_n_n.rhsIdx (ix2 p k) ((contrEquiv1 dot_S5000x180_S180x128_S5000x128_1_0_0_1_n_n 180 rfl rfl).symm l) = ix2 l k :=
    funext fun a => Fin.ext (by
      match a with
      | ⟨0, _⟩ => exact (dot180_rhs0 _ _).trans hl
      | ⟨1, _⟩ => exact dot180_rhs1 _ _)
  rw [el, er]

theorem dot128_lhs0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem dot128_lhs1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem dot128_rhs0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem dot128_rhs1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, c) of a 5000 × 128 block times a 128 × 128 matrix, accumulated into zero: the sum over the 128 columns. -/
theorem dot128_apply (a : FVec Ideal S5000x128 .bf16) (b : FVec Ideal S128x128 .bf16) (p : Fin 5000) (k : Fin 128) :
    matmul dot_S5000x128_S128x128_S5000x128_1_0_0_1_n_n none a b (constant (F := Ideal) S5000x128 .f32 0x00000000#32) (ix2 p k)
      = ∑ l : Fin 128, a (ix2 p l) * b (ix2 l k) := by
  show FloatOps.matmul dot_S5000x128_S128x128_S5000x128_1_0_0_1_n_n none a b (constant (F := Ideal) S5000x128 .f32 0x00000000#32) (ix2 p k) = _
  rw [Ideal.matmul_constant_zero_apply, ← Equiv.sum_comp (contrEquiv1 dot_S5000x128_S128x128_S5000x128_1_0_0_1_n_n 128 rfl rfl).symm]
  refine Finset.sum_congr rfl fun l _ => ?_
  have hl := contrEquiv1_symm_val dot_S5000x128_S128x128_S5000x128_1_0_0_1_n_n 128 rfl rfl l
  have el : dot_S5000x128_S128x128_S5000x128_1_0_0_1_n_n.lhsIdx (ix2 p k) ((contrEquiv1 dot_S5000x128_S128x128_S5000x128_1_0_0_1_n_n 128 rfl rfl).symm l) = ix2 p l :=
    funext fun a => Fin.ext (by
      match a with
      | ⟨0, _⟩ => exact dot128_lhs0 _ _
      | ⟨1, _⟩ => exact (dot128_lhs1 _ _).trans hl)
  have er : dot_S5000x128_S128x128_S5000x128_1_0_0_1_n_n.rhsIdx (ix2 p k) ((contrEquiv1 dot_S5000x128_S128x128_S5000x128_1_0_0_1_n_n 128 rfl rfl).symm l) = ix2 l k :=
    funext fun a => Fin.ext (by
      match a with
      | ⟨0, _⟩ => exact (dot128_rhs0 _ _).trans hl
      | ⟨1, _⟩ => exact dot128_rhs1 _ _)
  rw [el, er]

/-! ## The body's arithmetic at an entry of a block -/

/-- A [a, 1] column broadcast to [a, b] reads, at (p, c), the column's entry at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Entry (p, k) of the dense layer of a block: relu of row p of the features times column k of W₀, plus the bias. -/
def hiddenBlk (x : Vec Ideal S5000x180 .f32) (w0 : Vec Ideal S180x128 .f32) (b0 : Vec Ideal S1x128 .f32)
    (p : Fin 5000) (k : Fin 128) : EReal :=
  max (∑ l : Fin 180, x (ix2 p l) * w0 (ix2 l k) + b0 (ix2 (0 : Fin 1) k)) Cert.Gcn.zw

/-- Entry (p, c) of the body's result on a block: the dense layer's row p times column c of W₁, scaled by the degree
    factor of row p. -/
theorem pay_apply (x : Vec Ideal S5000x180 .f32) (w0 : Vec Ideal S180x128 .f32) (b0 : Vec Ideal S1x128 .f32)
    (w1 : Vec Ideal S128x128 .f32) (d : Vec Ideal S5000x1 .f32) (p : Fin 5000) (c : Fin 128) :
    k0_pay1 x w0 b0 w1 d (ix2 p c)
      = (∑ k : Fin 128, hiddenBlk x w0 b0 p k * w1 (ix2 k c)) * d (ix2 p (0 : Fin 1)) := by
  unfold k0_pay1
  refine (mulf_apply _ _ _).trans ?_
  refine congrArg₂ (· * ·) ?_ ?_
  · refine (dot128_apply _ _ p c).trans ?_
    refine Finset.sum_congr rfl fun k _ => ?_
    refine congrArg₂ (· * ·) ?_ rfl
    show max (matmul dot_S5000x180_S180x128_S5000x128_1_0_0_1_n_n none (truncf .bf16 x bitsLt_bf16_f32) (truncf .bf16 w0 bitsLt_bf16_f32)
          (constant (F := Ideal) S5000x128 .f32 0x00000000#32) (ix2 p k)
        + broadcastTo S5000x128 (shapeCast S1x128 b0 shapeCasts_S1x128_S1x128) broadcasts_S1x128_S5000x128 (ix2 p k)) Cert.Gcn.zw = _
    refine congrArg₂ max (congrArg₂ (· + ·) (dot180_apply _ _ p k) ?_) rfl
    rw [shapeCast_self]
    exact broadcastTo_1b_ab_apply b0 _ p k
  · rw [shapeCast_self]
    exact broadcastTo_a1_ab_apply d _ p c

/-! ## From blocks to the array -/

theorem zeros2 : (![0, 0] : Fin 2 → Nat) = fun _ => 0 := funext fun a => by fin_cases a <;> rfl

/-- Where each window's block sits at grid point t, decided over the ten points: the features', the degree column's and
    the output's blocks are block t of the rows; the weights and the bias row are their one block. -/
theorem block_index : ∀ t : Fin cfg0.N,
      win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- Row p of block t is row 5000·t + p of the node arrays. -/
def rowOf (t : Fin cfg0.N) (p : Fin 5000) : Fin 50000 :=
  ⟨t.val * 5000 + p.val, by have h1 := t.isLt; have h2 : cfg0.N = 10 := N_0; have h3 := p.isLt; omega⟩

/-- Block t of the features: row p of it is row 5000·t + p of the array. -/
theorem blk_x (c : Dev nD) (t : Fin cfg0.N) (p : Fin 5000) (l : Fin 180) :
    (iblk0 V c 0 t : Vec Ideal S5000x180 .f32) (ix2 p l) = (V c main_arg0 : S50000x180.Idx → EReal) (ix2 (rowOf t p) l) := by
  obtain ⟨e00, e01, -⟩ := block_index t
  show V c main_arg0 (((cfg0.win 0).blk t).view.emb (ix2 p l)) = V c main_arg0 (ix2 (rowOf t p) l)
  refine congrArg (V c main_arg0) (funext fun a => Fin.ext ?_)
  match a with
  | ⟨0, _⟩ => show win0_0.index t (0 : Fin 2) * 5000 + 1 * p.val = t.val * 5000 + p.val; omega
  | ⟨1, _⟩ => show win0_0.index t (1 : Fin 2) * 180 + 1 * l.val = l.val; omega

/-- The first weight matrix's one block is the matrix. -/
theorem blk_w0 (c : Dev nD) (t : Fin cfg0.N) (l : Fin 180) (k : Fin 128) :
    (iblk0 V c 1 t : Vec Ideal S180x128 .f32) (ix2 l k) = (V c main_arg1 : S180x128.Idx → EReal) (ix2 l k) := by
  obtain ⟨-, -, e10, e11, -⟩ := block_index t
  show V c main_arg1 (((cfg0.win 1).blk t).view.emb (ix2 l k)) = V c main_arg1 (ix2 l k)
  refine congrArg (V c main_arg1) (funext fun a => Fin.ext ?_)
  match a with
  | ⟨0, _⟩ => show win0_1.index t (0 : Fin 2) * 180 + 1 * l.val = l.val; omega
  | ⟨1, _⟩ => show win0_1.index t (1 : Fin 2) * 128 + 1 * k.val = k.val; omega

/-- The bias row's one block is the row. -/
theorem blk_b0 (c : Dev nD) (t : Fin cfg0.N) (k : Fin 128) :
    (iblk0 V c 2 t : Vec Ideal S1x128 .f32) (ix2 (0 : Fin 1) k) = (V c main_v18 : S1x128.Idx → EReal) (ix2 (0 : Fin 1) k) := by
  obtain ⟨-, -, -, -, e20, e21, -⟩ := block_index t
  show V c main_v18 (((cfg0.win 2).blk t).view.emb (ix2 (0 : Fin 1) k)) = V c main_v18 (ix2 (0 : Fin 1) k)
  refine congrArg (V c main_v18) (funext fun a => Fin.ext ?_)
  match a with
  | ⟨0, _⟩ => show win0_2.index t (0 : Fin 2) * 1 + 1 * 0 = 0; omega
  | ⟨1, _⟩ => show win0_2.index t (1 : Fin 2) * 128 + 1 * k.val = k.val; omega

/-- The second weight matrix's one block is the matrix. -/
theorem blk_w1 (c : Dev nD) (t : Fin cfg0.N) (k : Fin 128) (q : Fin 128) :
    (iblk0 V c 3 t : Vec Ideal S128x128 .f32) (ix2 k q) = (V c main_arg3 : S128x128.Idx → EReal) (ix2 k q) := by
  obtain ⟨-, -, -, -, -, -, e30, e31, -⟩ := block_index t
  show V c main_arg3 (((cfg0.win 3).blk t).view.emb (ix2 k q)) = V c main_arg3 (ix2 k q)
  refine congrArg (V c main_arg3) (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- Block t of the degree column: row p of it is row 5000·t + p of the column. -/
theorem blk_d (c : Dev nD) (t : Fin cfg0.N) (p : Fin 5000) :
    (iblk0 V c 4 t : Vec Ideal S5000x1 .f32) (ix2 p (0 : Fin 1)) = (V c main_v17 : S50000x1.Idx → EReal) (ix2 (rowOf t p) (0 : Fin 1)) := by
  obtain ⟨-, -, -, -, -, -, -, -, e40, e41, -⟩ := block_index t
  show V c main_v17 (((cfg0.win 4).blk t).view.emb (ix2 p (0 : Fin 1))) = V c main_v17 (ix2 (rowOf t p) (0 : Fin 1))
  refine congrArg (V c main_v17) (funext fun a => Fin.ext ?_)
  match a with
  | ⟨0, _⟩ => show win0_4.index t (0 : Fin 2) * 5000 + 1 * p.val = t.val * 5000 + p.val; omega
  | ⟨1, _⟩ => show win0_4.index t (1 : Fin 2) * 1 + 1 * 0 = 0; omega

/-- Entry (p, q) of the output's block t is entry (5000·t + p, q) of the output array. -/
theorem out_emb (t : Fin cfg0.N) (p : Fin 5000) (q : Fin 128) :
    (((cfg0.win 5).blk t).view.emb (ix2 p q) : S50000x128.Idx) = ix2 (rowOf t p) q := by
  obtain ⟨-, -, -, -, -, -, -, -, -, -, e50, e51⟩ := block_index t
  refine funext fun a => Fin.ext ?_
  match a with
  | ⟨0, _⟩ => show win0_5.index t (0 : Fin 2) * 5000 + 1 * p.val = t.val * 5000 + p.val; omega
  | ⟨1, _⟩ => show win0_5.index t (1 : Fin 2) * 128 + 1 * q.val = q.val; omega

/-- The dense layer of block t, at row p, is the dense layer of the arrays at row 5000·t + p. -/
theorem hiddenBlk_eq (c : Dev nD) (t : Fin cfg0.N) (p : Fin 5000) (k : Fin 128) :
    hiddenBlk (iblk0 V c 0 t) (iblk0 V c 1 t) (iblk0 V c 2 t) p k
      = Cert.Gcn.hidden (V c main_arg0) (V c main_arg1) (V c main_v18) (rowOf t p) k := by
  unfold hiddenBlk Cert.Gcn.hidden
  refine congrArg₂ max (congrArg₂ (· + ·) (Finset.sum_congr rfl fun l _ => ?_) (blk_b0 V c t k)) rfl
  exact congrArg₂ (· * ·) (blk_x V c t p l) (blk_w0 V c t l k)

/-- What grid point t writes back is block t of the first row-local stage of the arrays the region finds. -/
theorem flushed_eq (c : Dev nD) (t : Fin cfg0.N) :
    (dat0 (F := Ideal) V c).flushed 5 t = ((cfg0.win 5).blk t).view.read (Elt Ideal)
      (Cert.Gcn.scaledXW1 (V c main_arg0) (V c main_arg1) (V c main_v18) (V c main_arg3) (V c main_v17)) := by
  show (cfg0.win 5).cut (grid0.coords t) ((dat0 V c).after 5 t) = _
  rw [after0_5]
  unfold out0_5
  rw [View.canon_unit_zero zeros2]
  simp only [View.ld_unit_zero (S := S5000x180) zeros2, View.ld_unit_zero (S := S180x128) zeros2,
    View.ld_unit_zero (S := S1x128) zeros2, View.ld_unit_zero (S := S128x128) zeros2, View.ld_unit_zero (S := S5000x1) zeros2]
  funext j
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (iblk0 V c 3 t) (iblk0 V c 4 t) (ix2 p q)
    = Cert.Gcn.scaledXW1 (V c main_arg0) (V c main_arg1) (V c main_v18) (V c main_arg3) (V c main_v17)
        (((cfg0.win 5).blk t).view.emb (ix2 p q))
  refine (pay_apply _ _ _ _ _ p q).trans ?_
  rw [out_emb t p q]
  show _ = Cert.Gcn.scaledXW1At (V c main_arg0) (V c main_arg1) (V c main_v18) (V c main_arg3) (V c main_v17) (rowOf t p) q
  unfold Cert.Gcn.scaledXW1At
  refine congrArg₂ (· * ·) (Finset.sum_congr rfl fun k _ => ?_) (blk_d V c t p)
  exact congrArg₂ (· * ·) (hiddenBlk_eq V c t p k) (blk_w1 V c t k q)

/-- An entry of the output array is in point t's block iff each coordinate is in the block's range on its axis. -/
theorem mem_blk (t : Fin cfg0.N) (i : S50000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v19).slice (win0_5.rect t)).set ↔ _
  rw [View.set_slice_whole, Rect.mem_set_unit]
  exact Iff.rfl

/-- The ten blocks tile the rows: row r is in the block of point r / 5000. -/
theorem covered (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 10 := N_0
  refine ⟨⟨(i 0).val / 5000, by omega⟩, flush0_5 _, ?_⟩
  obtain ⟨-, -, -, -, -, -, -, -, -, -, e50, e51⟩ := block_index ⟨(i 0).val / 5000, by omega⟩
  rw [mem_blk]
  intro a
  match a with
  | ⟨0, _⟩ =>
    show win0_5.index ⟨(i 0).val / 5000, _⟩ (0 : Fin 2) * 5000 ≤ (i 0).val
      ∧ (i 0).val < win0_5.index ⟨(i 0).val / 5000, _⟩ (0 : Fin 2) * 5000 + 5000
    rw [e50]; show (i 0).val / 5000 * 5000 ≤ (i 0).val ∧ (i 0).val < (i 0).val / 5000 * 5000 + 5000; omega
  | ⟨1, _⟩ =>
    show win0_5.index ⟨(i 0).val / 5000, _⟩ (1 : Fin 2) * 128 ≤ (i 1).val
      ∧ (i 1).val < win0_5.index ⟨(i 0).val / 5000, _⟩ (1 : Fin 2) * 128 + 128
    rw [e51]; omega

/-- The array the region leaves is the first row-local stage of the arrays it finds, entry by entry. -/
theorem final (c : Dev nD) : (dat0 (F := Ideal) V c).arrAt 5 cfg0.N
    = Cert.Gcn.scaledXW1 (V c main_arg0) (V c main_arg1) (V c main_v18) (V c main_arg3) (V c main_v17) :=
  (dat0 (F := Ideal) V c).arrAt_eq_of_cover 5
    (Cert.Gcn.scaledXW1 (V c main_arg0) (V c main_arg1) (V c main_v18) (V c main_arg3) (V c main_v17))
    (fun t _ => flushed_eq V c t) covered

end Cert.KernelIdeal.Region0

end
-- ==== Proof.Region1.lean ====
/-
  The second row-local stage of the graph convolution, block by block.

  The output array has 50000 rows of 64 entries. Entry (r, c) is
      (Σ over k < 128 of max(a(r, k) · d(r) + b(k), 0) · W(k, c)) · d(r):
  it depends on row r of the first edge sum a, on the normalising factor d(r) of node r, on the bias row b and on
  the weight matrix W — on nothing from any other row of a or d. The region visits ten grid points. Point t stages
  rows 5000·t … 5000·t + 4999 of a and of d, the whole bias row and the whole weight matrix, and writes back rows
  5000·t … 5000·t + 4999 of the result. So what point t writes back is block t of the whole-array function
  `Cert.Gcn.scaledXW2`; and since row r lies in the block of the point r / 5000, the ten blocks fill the array.
-/
import proofs.«122493_j65197603553735_2_alg».proof.Proof.Gen.KernelIdeal.Frame
import proofs.«122493_j65197603553735_2_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered: any
variable (V : (c : Dev nD) → (b : Ref sig .tc) → Buf (Elt Ideal) ((c : Thread nD τ).loc b))

/-- The zero offsets of a load or store of a whole block, however they are spelt. -/
theorem zero_offsets : (![0, 0] : Fin 2 → Nat) = fun _ => 0 := funext fun a => by fin_cases a <;> rfl

/-- A column `[a, 1]` broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The product's operand indices: at output entry (p, q) and contraction position k they are (p, k) and (k, q) -/

theorem lhs_row (i : S5000x64.Idx) (u : dot_S5000x128_S128x64_S5000x64_1_0_0_1_n_n.contr.Idx) : (dot_S5000x128_S128x64_S5000x64_1_0_0_1_n_n.lhsIdx i u 0).val = (i 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl

theorem lhs_col (i : S5000x64.Idx) (u : dot_S5000x128_S128x64_S5000x64_1_0_0_1_n_n.contr.Idx) : (dot_S5000x128_S128x64_S5000x64_1_0_0_1_n_n.lhsIdx i u 1).val = (u ⟨0, by decide⟩).val :=
  dot_S5000x128_S128x64_S5000x64_1_0_0_1_n_n.lhsIdx_val_of_single rfl i u

theorem rhs_row (i : S5000x64.Idx) (u : dot_S5000x128_S128x64_S5000x64_1_0_0_1_n_n.contr.Idx) : (dot_S5000x128_S128x64_S5000x64_1_0_0_1_n_n.rhsIdx i u 0).val = (u ⟨0, by decide⟩).val :=
  dot_S5000x128_S128x64_S5000x64_1_0_0_1_n_n.rhsIdx_val_of_single rfl i u

theorem rhs_col (i : S5000x64.Idx) (u : dot_S5000x128_S128x64_S5000x64_1_0_0_1_n_n.contr.Idx) : (dot_S5000x128_S128x64_S5000x64_1_0_0_1_n_n.rhsIdx i u 1).val = (i 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-- The matrix product into a zero accumulator, at entry (p, q): the sum over the 128 contraction positions. -/
theorem product_apply (l : FVec Ideal S5000x128 .bf16) (r : FVec Ideal S128x64 .bf16) (p : Fin 5000) (q : Fin 64) :
    matmul dot_S5000x128_S128x64_S5000x64_1_0_0_1_n_n none l r (constant (F := Ideal) S5000x64 .f32 0x00000000#32) (ix2 p q)
      = ∑ k : Fin 128, l (ix2 p k) * r (ix2 k q) := by
  refine (Ideal.matmul_constant_zero_apply dot_S5000x128_S128x64_S5000x64_1_0_0_1_n_n none l r (ix2 p q)).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p q) ((contrEquiv1 dot_S5000x128_S128x64_S5000x64_1_0_0_1_n_n 128 rfl rfl).symm k) = ix2 p k :=
    funext fun a => Fin.ext (by
      match a with
      | ⟨0, _⟩ => exact lhs_row _ _
      | ⟨1, _⟩ => exact (lhs_col _ _).trans hk)
  have er : dot_S5000x128_S128x64_S5000x64_1_0_0_1_n_n.rhsIdx (ix2 p q) ((contrEquiv1 dot_S5000x128_S128x64_S5000x64_1_0_0_1_n_n 128 rfl rfl).symm k) = ix2 k q :=
    funext fun a => Fin.ext (by
      match a with
      | ⟨0, _⟩ => exact (rhs_row _ _).trans hk
      | ⟨1, _⟩ => exact rhs_col _ _)
  rw [el, er]

/-- THE BODY AT AN ENTRY: entry (p, q) of the block the body stores, from the staged blocks (the factor block is
    loaded twice, once for each of its two uses). -/
theorem payload_apply (x0 : Vec Ideal S5000x128 .f32) (x1 : Vec Ideal S5000x1 .f32) (x2 : Vec Ideal S1x128 .f32)
    (x3 : Vec Ideal S128x64 .f32) (x4 : Vec Ideal S5000x1 .f32) (p : Fin 5000) (q : Fin 64) :
    k1_pay1 x0 x1 x2 x3 x4 (ix2 p q)
      = (∑ k : Fin 128, max (x0 (ix2 p k) * x1 (ix2 p (0 : Fin 1)) + x2 (ix2 (0 : Fin 1) k)) Cert.Gcn.zw * x3 (ix2 k q))
          * x4 (ix2 p (0 : Fin 1)) := by
  unfold k1_pay1
  refine (mulf_apply _ _ _).trans ?_
  refine congrArg₂ (· * ·) ((product_apply _ _ p q).trans (Finset.sum_congr rfl fun k _ => ?_)) ?_
  · refine congrArg₂ (· * ·) ?_ (truncf_apply (φ := .f32) (ψ := .bf16) x3 bitsLt_bf16_f32 (ix2 k q))
    refine (truncf_apply (φ := .f32) (ψ := .bf16) _ bitsLt_bf16_f32 (ix2 p k)).trans
      ((maximumf_apply _ _ _).trans (congrArg₂ max ?_ rfl))
    refine (addf_apply _ _ _).trans (congrArg₂ (· + ·) ((mulf_apply _ _ _).trans (congrArg₂ (· * ·) ?_ ?_)) ?_)
    · rw [shapeCast_self]
    · rw [shapeCast_self]; exact broadcastTo_a1_ab_apply _ _ p k
    · rw [shapeCast_self]; exact broadcastTo_1b_ab_apply _ _ p k
  · rw [shapeCast_self]; exact broadcastTo_a1_ab_apply _ _ p q

/-- The printed index maps, decided once over the grid: at point t the windows over a, over d and over the result
    are at block row t, block column 0; the bias window and the weight window stay at block (0, 0). -/
theorem index_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The staged block of a at point t is rows 5000·t … 5000·t + 4999 of a. -/
theorem block_a_apply (c : Dev nD) (t : Fin cfg1.N) (p : Fin 5000) (k : Fin 128) (i : S50000x128.Idx)
    (hi0 : (i 0).val = t.val * 5000 + p.val) (hi1 : (i 1).val = k.val) :
    (iblk1 V c 0 t : Vec Ideal S5000x128 .f32) (ix2 p k) = (V c main_v29 : S50000x128.Idx → EReal) i := by
  obtain ⟨e00, e01, -⟩ := index_facts t
  show V c main_v29 (((cfg1.win 0).blk t).view.emb (ix2 p k)) = V c main_v29 i
  refine congrArg _ (funext fun a => Fin.ext ?_)
  match a with
  | ⟨0, _⟩ => show win1_0.index t (0 : Fin 2) * 5000 + 1 * p.val = (i 0).val; omega
  | ⟨1, _⟩ => show win1_0.index t (1 : Fin 2) * 128 + 1 * k.val = (i 1).val; omega

/-- The staged block of d at point t is rows 5000·t … 5000·t + 4999 of d. -/
theorem block_d_apply (c : Dev nD) (t : Fin cfg1.N) (p : Fin 5000) (i : S50000x1.Idx)
    (hi0 : (i 0).val = t.val * 5000 + p.val) :
    (iblk1 V c 1 t : Vec Ideal S5000x1 .f32) (ix2 p (0 : Fin 1)) = (V c main_v17 : S50000x1.Idx → EReal) i := by
  obtain ⟨-, -, e10, e11, -⟩ := index_facts t
  show V c main_v17 (((cfg1.win 1).blk t).view.emb (ix2 p (0 : Fin 1))) = V c main_v17 i
  refine congrArg _ (funext fun a => Fin.ext ?_)
  match a with
  | ⟨0, _⟩ => show win1_1.index t (0 : Fin 2) * 5000 + 1 * p.val = (i 0).val; omega
  | ⟨1, _⟩ => show win1_1.index t (1 : Fin 2) * 1 + 1 * 0 = (i 1).val; have hi : (i 1).val < 1 := (i 1).isLt; omega

/-- The staged bias block is the bias row, at every point. -/
theorem block_b_apply (c : Dev nD) (t : Fin cfg1.N) (k : Fin 128) (i : S1x128.Idx) (hi1 : (i 1).val = k.val) :
    (iblk1 V c 2 t : Vec Ideal S1x128 .f32) (ix2 (0 : Fin 1) k) = (V c main_v30 : S1x128.Idx → EReal) i := by
  obtain ⟨-, -, -, -, e20, e21, -⟩ := index_facts t
  show V c main_v30 (((cfg1.win 2).blk t).view.emb (ix2 (0 : Fin 1) k)) = V c main_v30 i
  refine congrArg _ (funext fun a => Fin.ext ?_)
  match a with
  | ⟨0, _⟩ => show win1_2.index t (0 : Fin 2) * 1 + 1 * 0 = (i 0).val; have hi : (i 0).val < 1 := (i 0).isLt; omega
  | ⟨1, _⟩ => show win1_2.index t (1 : Fin 2) * 128 + 1 * k.val = (i 1).val; omega

/-- The staged weight block is the weight matrix, at every point. -/
theorem block_w_apply (c : Dev nD) (t : Fin cfg1.N) (k : Fin 128) (q : Fin 64) (i : S128x64.Idx)
    (hi0 : (i 0).val = k.val) (hi1 : (i 1).val = q.val) :
    (iblk1 V c 3 t : Vec Ideal S128x64 .f32) (ix2 k q) = (V c main_arg5 : S128x64.Idx → EReal) i := by
  obtain ⟨-, -, -, -, -, -, e30, e31, -⟩ := index_facts t
  show V c main_arg5 (((cfg1.win 3).blk t).view.emb (ix2 k q)) = V c main_arg5 i
  refine congrArg _ (funext fun a => Fin.ext ?_)
  match a with
  | ⟨0, _⟩ => show win1_3.index t (0 : Fin 2) * 128 + 1 * k.val = (i 0).val; omega
  | ⟨1, _⟩ => show win1_3.index t (1 : Fin 2) * 64 + 1 * q.val = (i 1).val; omega

/-- WHAT POINT t WRITES BACK is block t of the second stage of the arrays as the region finds them. -/
theorem flushed_eq (c : Dev nD) (t : Fin cfg1.N) :
    (dat1 (F := Ideal) V c).flushed 4 t
      = ((cfg1.win 4).blk t).view.read (Elt Ideal)
          (Cert.Gcn.scaledXW2 (V c main_v29) (V c main_v17) (V c main_v30) (V c main_arg5)) := by
  show (cfg1.win 4).cut (grid1.coords t) ((dat1 (F := Ideal) V c).after 4 t) = _
  rw [after1_4]
  unfold out1_4
  rw [View.canon_unit_zero zero_offsets]
  simp only [View.ld_unit_zero (S := S5000x128) zero_offsets, View.ld_unit_zero (S := S5000x1) zero_offsets,
    View.ld_unit_zero (S := S1x128) zero_offsets, View.ld_unit_zero (S := S128x64) zero_offsets]
  obtain ⟨-, -, -, -, -, -, -, -, e40, e41⟩ := index_facts t
  refine funext fun (j : S5000x64.Idx) => ?_
  obtain ⟨p, q, rfl⟩ : ∃ (p : Fin 5000) (q : Fin 64), j = ix2 p q := ⟨j 0, j 1, eq_ix2 j⟩
  show k1_pay1 (iblk1 V c 0 t) (iblk1 V c 1 t) (iblk1 V c 2 t) (iblk1 V c 3 t) (iblk1 V c 1 t) (ix2 p q)
    = Cert.Gcn.scaledXW2At (V c main_v29) (V c main_v17) (V c main_v30) (V c main_arg5)
        ((((cfg1.win 4).blk t).view.emb (ix2 p q)) 0) ((((cfg1.win 4).blk t).view.emb (ix2 p q)) 1)
  refine (payload_apply (iblk1 V c 0 t) (iblk1 V c 1 t) (iblk1 V c 2 t) (iblk1 V c 3 t) (iblk1 V c 1 t) p q).trans ?_
  unfold Cert.Gcn.scaledXW2At
  have hrow : ((((cfg1.win 4).blk t).view.emb (ix2 p q)) 0).val = t.val * 5000 + p.val := by
    show win1_4.index t (0 : Fin 2) * 5000 + 1 * p.val = t.val * 5000 + p.val; omega
  have hcol : ((((cfg1.win 4).blk t).view.emb (ix2 p q)) 1).val = q.val := by
    show win1_4.index t (1 : Fin 2) * 64 + 1 * q.val = q.val; omega
  refine congrArg₂ (· * ·) (Finset.sum_congr rfl fun k _ => congrArg₂ (· * ·) (congrArg₂ max (congrArg₂ (· + ·)
    (congrArg₂ (· * ·) (block_a_apply V c t p k _ hrow rfl) (block_d_apply V c t p _ hrow))
    (block_b_apply V c t k _ rfl)) rfl) (block_w_apply V c t k q _ rfl hcol)) (block_d_apply V c t p _ hrow)

/-- An index of the array is in point t's block iff each coordinate is in the block's range on its axis. -/
theorem mem_block (t : Fin cfg1.N) (i : S50000x64.Idx) :
    i ∈ ((cfg1.win 4).blk t).view.set ↔ ∀ a : Fin 2, win1_4.index t a * S5000x64.size a ≤ (i a).val
      ∧ (i a).val < win1_4.index t a * S5000x64.size a + S5000x64.size a := by
  show i ∈ ((View.whole main_v31).slice (win1_4.rect t)).set ↔ _
  rw [View.set_slice_whole, Rect.mem_set_unit]
  exact Iff.rfl

/-- THE BLOCKS FILL THE ARRAY: row r is in the block of the point r / 5000, and every point writes its block back. -/
theorem cover (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, -, -, e40, e41⟩ := index_facts t
  refine ⟨t, flush1_4 t, ?_⟩
  rw [mem_block]
  intro a
  match a with
  | ⟨0, _⟩ =>
    show win1_4.index t (0 : Fin 2) * 5000 ≤ (i 0).val ∧ (i 0).val < win1_4.index t (0 : Fin 2) * 5000 + 5000
    omega
  | ⟨1, _⟩ =>
    show win1_4.index t (1 : Fin 2) * 64 ≤ (i 1).val ∧ (i 1).val < win1_4.index t (1 : Fin 2) * 64 + 64
    omega

/-- THE ARRAY after the region: the second stage of the arrays as the region finds them, at every entry. -/
theorem final (c : Dev nD) : (dat1 (F := Ideal) V c).arrAt 4 cfg1.N
    = Cert.Gcn.scaledXW2 (V c main_v29) (V c main_v17) (V c main_v30) (V c main_arg5) :=
  (dat1 (F := Ideal) V c).arrAt_eq_of_cover 4 _ (fun t _ => flushed_eq V c t) cover

end Cert.KernelIdeal.Region1

end
-- ==== Proof.Region2.lean ====
/-
  The last row-local stage of the graph convolution, block by block.

  The output array has 50000 rows of 64 entries. Entry (r, c) is a(r, c) · d(r) + b(c): it depends on row r of the
  edge sum a, on the normalising factor d(r) of node r, and on the bias row b — on nothing from any other row. The
  region visits ten grid points. Point t stages rows 5000·t … 5000·t + 4999 of a and of d, and the whole bias row,
  and writes back rows 5000·t … 5000·t + 4999 of the result. So what point t writes back is block t of the
  whole-array function `Cert.Gcn.finalOut`; and since row r lies in the block of the point r / 5000, the ten blocks
  fill the array.
-/
import proofs.«122493_j65197603553735_2_alg».proof.Proof.Gen.KernelIdeal.Frame
import proofs.«122493_j65197603553735_2_alg».proof.Proof.GcnSpec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat Cfg Window)

-- the TensorCore's buffer contents when the region is entered: any
variable (V : (c : Dev nD) → (b : Ref sig .tc) → Buf (Elt Ideal) ((c : Thread nD τ).loc b))

/-- The zero offsets of a load or store of a whole block, however they are spelt. -/
theorem zero_offsets : (![0, 0] : Fin 2 → Nat) = fun _ => 0 := funext fun a => by fin_cases a <;> rfl

/-- A column `[a, 1]` broadcast to `[a, b]` reads, at `(p, c)`, the operand's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- THE BODY AT AN ENTRY: entry (p, q) of the block the body stores is the staged block of a at (p, q), times the
    staged factor of row p, plus the bias at q. -/
theorem payload_apply (x0 : Vec Ideal S5000x64 .f32) (x1 : Vec Ideal S5000x1 .f32) (x2 : Vec Ideal S1x64 .f32)
    (p : Fin 5000) (q : Fin 64) :
    k2_pay1 x0 x1 x2 (ix2 p q) = x0 (ix2 p q) * x1 (ix2 p (0 : Fin 1)) + x2 (ix2 (0 : Fin 1) q) := by
  unfold k2_pay1
  refine (addf_apply _ _ _).trans ?_
  refine congrArg₂ (· + ·) ((mulf_apply _ _ _).trans (congrArg₂ (· * ·) ?_ ?_)) ?_
  · rw [shapeCast_self]
  · rw [shapeCast_self]; exact broadcastTo_a1_ab_apply _ _ p q
  · rw [shapeCast_self]; exact broadcastTo_1b_ab_apply _ _ p q

/-- The printed index maps, decided once over the grid: at point t the windows over a, over d and over the result
    are at block row t, block column 0; the bias window stays at block (0, 0). -/
theorem index_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The staged block of a at point t is rows 5000·t … 5000·t + 4999 of a. -/
theorem block_a_apply (c : Dev nD) (t : Fin cfg2.N) (p : Fin 5000) (q : Fin 64) (k : S50000x64.Idx)
    (hk0 : (k 0).val = t.val * 5000 + p.val) (hk1 : (k 1).val = q.val) :
    (iblk2 V c 0 t : Vec Ideal S5000x64 .f32) (ix2 p q) = (V c main_v41 : S50000x64.Idx → EReal) k := by
  obtain ⟨e00, e01, -⟩ := index_facts t
  show V c main_v41 (((cfg2.win 0).blk t).view.emb (ix2 p q)) = V c main_v41 k
  refine congrArg _ (funext fun a => Fin.ext ?_)
  match a with
  | ⟨0, _⟩ => show win2_0.index t (0 : Fin 2) * 5000 + 1 * p.val = (k 0).val; omega
  | ⟨1, _⟩ => show win2_0.index t (1 : Fin 2) * 64 + 1 * q.val = (k 1).val; omega

/-- The staged block of d at point t is rows 5000·t … 5000·t + 4999 of d. -/
theorem block_d_apply (c : Dev nD) (t : Fin cfg2.N) (p : Fin 5000) (k : S50000x1.Idx)
    (hk0 : (k 0).val = t.val * 5000 + p.val) :
    (iblk2 V c 1 t : Vec Ideal S5000x1 .f32) (ix2 p (0 : Fin 1)) = (V c main_v17 : S50000x1.Idx → EReal) k := by
  obtain ⟨-, -, e10, e11, -⟩ := index_facts t
  show V c main_v17 (((cfg2.win 1).blk t).view.emb (ix2 p (0 : Fin 1))) = V c main_v17 k
  refine congrArg _ (funext fun a => Fin.ext ?_)
  match a with
  | ⟨0, _⟩ => show win2_1.index t (0 : Fin 2) * 5000 + 1 * p.val = (k 0).val; omega
  | ⟨1, _⟩ => show win2_1.index t (1 : Fin 2) * 1 + 1 * 0 = (k 1).val; have hk : (k 1).val < 1 := (k 1).isLt; omega

/-- The staged bias block is the bias row, at every point. -/
theorem block_b_apply (c : Dev nD) (t : Fin cfg2.N) (q : Fin 64) (k : S1x64.Idx) (hk1 : (k 1).val = q.val) :
    (iblk2 V c 2 t : Vec Ideal S1x64 .f32) (ix2 (0 : Fin 1) q) = (V c main_v42 : S1x64.Idx → EReal) k := by
  obtain ⟨-, -, -, -, e20, e21, -⟩ := index_facts t
  show V c main_v42 (((cfg2.win 2).blk t).view.emb (ix2 (0 : Fin 1) q)) = V c main_v42 k
  refine congrArg _ (funext fun a => Fin.ext ?_)
  match a with
  | ⟨0, _⟩ => show win2_2.index t (0 : Fin 2) * 1 + 1 * 0 = (k 0).val; have hk : (k 0).val < 1 := (k 0).isLt; omega
  | ⟨1, _⟩ => show win2_2.index t (1 : Fin 2) * 64 + 1 * q.val = (k 1).val; omega

/-- WHAT POINT t WRITES BACK is block t of the last stage of the arrays as the region finds them. -/
theorem flushed_eq (c : Dev nD) (t : Fin cfg2.N) :
    (dat2 (F := Ideal) V c).flushed 3 t
      = ((cfg2.win 3).blk t).view.read (Elt Ideal) (Cert.Gcn.finalOut (V c main_v41) (V c main_v17) (V c main_v42)) := by
  show (cfg2.win 3).cut (grid2.coords t) ((dat2 (F := Ideal) V c).after 3 t) = _
  rw [after2_3]
  unfold out2_3
  rw [View.canon_unit_zero zero_offsets]
  simp only [View.ld_unit_zero (S := S5000x64) zero_offsets, View.ld_unit_zero (S := S5000x1) zero_offsets,
    View.ld_unit_zero (S := S1x64) zero_offsets]
  obtain ⟨-, -, -, -, -, -, e30, e31⟩ := index_facts t
  refine funext fun (j : S5000x64.Idx) => ?_
  obtain ⟨p, q, rfl⟩ : ∃ (p : Fin 5000) (q : Fin 64), j = ix2 p q := ⟨j 0, j 1, eq_ix2 j⟩
  show k2_pay1 (iblk2 V c 0 t) (iblk2 V c 1 t) (iblk2 V c 2 t) (ix2 p q)
    = Cert.Gcn.finalOutAt (V c main_v41) (V c main_v17) (V c main_v42)
        ((((cfg2.win 3).blk t).view.emb (ix2 p q)) 0) ((((cfg2.win 3).blk t).view.emb (ix2 p q)) 1)
  refine (payload_apply (iblk2 V c 0 t) (iblk2 V c 1 t) (iblk2 V c 2 t) p q).trans ?_
  unfold Cert.Gcn.finalOutAt
  refine congrArg₂ (· + ·) (congrArg₂ (· * ·) (block_a_apply V c t p q _ ?_ ?_) (block_d_apply V c t p _ ?_))
    (block_b_apply V c t q _ ?_)
  · show win2_3.index t (0 : Fin 2) * 5000 + 1 * p.val = t.val * 5000 + p.val; omega
  · show win2_3.index t (1 : Fin 2) * 64 + 1 * q.val = q.val; omega
  · show win2_3.index t (0 : Fin 2) * 5000 + 1 * p.val = t.val * 5000 + p.val; omega
  · show win2_3.index t (1 : Fin 2) * 64 + 1 * q.val = q.val; omega

/-- An index of the array is in point t's block iff each coordinate is in the block's range on its axis. -/
theorem mem_block (t : Fin cfg2.N) (i : S50000x64.Idx) :
    i ∈ ((cfg2.win 3).blk t).view.set ↔ ∀ a : Fin 2, win2_3.index t a * S5000x64.size a ≤ (i a).val
      ∧ (i a).val < win2_3.index t a * S5000x64.size a + S5000x64.size a := by
  show i ∈ ((View.whole main_v43).slice (win2_3.rect t)).set ↔ _
  rw [View.set_slice_whole, Rect.mem_set_unit]
  exact Iff.rfl

/-- THE BLOCKS FILL THE ARRAY: row r is in the block of the point r / 5000, and every point writes its block back. -/
theorem cover (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨-, -, -, -, -, -, e30, e31⟩ := index_facts t
  refine ⟨t, flush2_3 t, ?_⟩
  rw [mem_block]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 64 ≤ (i 1).val ∧ (i 1).val < win2_3.index t (1 : Fin 2) * 64 + 64
    omega

/-- THE ARRAY after the region: the last stage of the arrays as the region finds them, at every entry. -/
theorem final (c : Dev nD) : (dat2 (F := Ideal) V c).arrAt 3 cfg2.N
    = Cert.Gcn.finalOut (V c main_v41) (V c main_v17) (V c main_v42) :=
  (dat2 (F := Ideal) V c).arrAt_eq_of_cover 3 _ (fun t _ => flushed_eq V c t) cover

end Cert.KernelIdeal.Region2

end
-- ==== Proof.LibEdgeSum.lean ====
/-
  Sums over the edges of a graph, as a row gather followed by a scatter-add, over the extended reals.

  General facts, no program in them:
  * a nonnegative real factor passes through a finite sum of extended reals (`sum_mul_of_nonneg_of_ne_top`:
    the extended reals do not distribute in general, but (y + z)·c = y·c + z·c for 0 ≤ c < ⊤);
  * which operand element a ROW GATHER reads (operand [N, C], one start index per row e of the result [E, C]:
    row = the index read signed and clamped into [0, N − 1], column kept), and which a VECTOR gather reads
    (operand [N], result [E]);
  * where a ROW SCATTER puts an update row (operand [N, C], updates [E, C]): if update (e, c) lands at (n, c')
    then the scatter index of e, read signed, is n, and c = c' (an update whose index is outside lands nowhere);
  * the EDGE-SUM LAW (`edge_sum_law`): gathering rows already scaled by a per-row factor, summing them at their
    targets and scaling the target row by its factor equals gathering the unscaled rows, scaling each by the
    product of the source's and the target's factors, and summing — provided the factors are nonnegative reals
    and an edge that lands at row n reads the target factor at n.
-/
import Idealize.ShloMosaic.PureOps.Ideal
import Idealize.ShloMosaic.PureOps.Ideal.Laws
import Idealize.ShloMosaic.Lib.ValueIdx

noncomputable section

open scoped BigOperators

namespace Cert.EdgeSum

open Idealize.ShloMosaic Idealize.ShloMosaic.ValueIdx

/-! ## A nonnegative real factor and a finite sum -/

/-- (Σ f)·c = Σ (f·c) over the extended reals when 0 ≤ c < ⊤. -/
theorem sum_mul_of_nonneg_of_ne_top {ι : Type*} (s : Finset ι) (f : ι → EReal) {c : EReal} (h0 : 0 ≤ c) (ht : c ≠ ⊤) :
    (∑ j ∈ s, f j) * c = ∑ j ∈ s, f j * c := by
  classical
  induction s using Finset.induction_on with
  | empty => simp
  | insert a s ha ih =>
    rw [Finset.sum_insert ha, Finset.sum_insert ha, EReal.right_distrib_of_nonneg_of_ne_top h0 ht, ih]

/-! ## A row gather: operand [N, C], start indices [E, 1], result [E, C] -/

/-- The dimension numbers of `x[idx]` for a matrix `x : [N, C]` and a vector of E row indices kept as [E, 1]. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a row gather reads for result row `j 0`: the start index, signed, clamped into [0, N − 1]. -/
theorem rowGather_row {N E C w : Nat}
    (wf : GatherDims.WF ⟨2, ![N, C]⟩ ⟨2, ![E, 1]⟩ ⟨2, ![E, C]⟩ [1] [0] [] [0] [] 1 ![1, C])
    (j : (⟨2, ![E, C]⟩ : Shape).Idx) (idx : IVec ⟨2, ![E, 1]⟩ w) :
    (((rowGatherDims N E C wf).operandIdx j idx) 0).val
      = min (idx (ix2 (j 0) (0 : Fin 1))).toInt.toNat (N - 1) := by
  show (rowGatherDims N E C wf).start j idx 0 + (rowGatherDims N E C wf).batchCoord j 0
    + (rowGatherDims N E C wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGatherDims N E C wf).startIndexMap from List.mem_singleton.mpr rfl)]
  have hsi : (rowGatherDims N E C wf).siIdx j ⟨List.idxOf (0 : Fin 2) (rowGatherDims N E C wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The column a row gather reads: the result's own column. -/
theorem rowGather_col {N E C w : Nat}
    (wf : GatherDims.WF ⟨2, ![N, C]⟩ ⟨2, ![E, 1]⟩ ⟨2, ![E, C]⟩ [1] [0] [] [0] [] 1 ![1, C])
    (j : (⟨2, ![E, C]⟩ : Shape).Idx) (idx : IVec ⟨2, ![E, 1]⟩ w) :
    (((rowGatherDims N E C wf).operandIdx j idx) 1).val = (j 1).val := by
  show (rowGatherDims N E C wf).start j idx 1 + (rowGatherDims N E C wf).batchCoord j 1
    + (rowGatherDims N E C wf).offCoord j 1 = _
  rw [GatherDims.batchCoord_eq_zero _ _ _ List.not_mem_nil]
  have hs : (rowGatherDims N E C wf).start j idx 1 = 0 := by
    unfold GatherDims.start
    rw [dif_neg (show ¬ (1 : Fin 2) ∈ [(0 : Fin 2)] by decide)]
  rw [hs]
  simp only [Nat.add_zero, Nat.zero_add]
  unfold GatherDims.offCoord
  rw [dif_pos (show (1 : Fin 2) ∈ (rowGatherDims N E C wf).sKept from
    (GatherDims.mem_sKept _ _).mpr ⟨(show ¬ (1 : Fin 2) ∈ [(0 : Fin 2)] by decide), List.not_mem_nil⟩)]
  rfl

/-! ## A vector gather: operand [N], start indices [E, 1], result [E] -/

/-- The dimension numbers of `v[idx]` for a vector `v : [N]` and E indices kept as [E, 1]. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- The element a vector gather reads for result element `j 0`: the start index, signed, clamped into [0, N − 1]. -/
theorem vecGather_elt {N E w : Nat}
    (wf : GatherDims.WF ⟨1, ![N]⟩ ⟨2, ![E, 1]⟩ ⟨1, ![E]⟩ [] [0] [] [0] [] 1 ![1])
    (j : (⟨1, ![E]⟩ : Shape).Idx) (idx : IVec ⟨2, ![E, 1]⟩ w) :
    (((vecGatherDims N E wf).operandIdx j idx) 0).val
      = min (idx (ix2 (j 0) (0 : Fin 1))).toInt.toNat (N - 1) := by
  show (vecGatherDims N E wf).start j idx 0 + (vecGatherDims N E wf).batchCoord j 0
    + (vecGatherDims N E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx j ⟨List.idxOf (0 : Fin 1) (vecGatherDims N E wf).startIndexMap,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-! ## A row scatter: operand [N, C], scatter indices [E, 1], updates [E, C] -/

/-- The dimension numbers of `x.at[idx].add(u)` for a matrix `x : [N, C]`, E row indices kept as [E, 1] and update
    rows `u : [E, C]`. -/
abbrev rowScatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section RowScatter
variable {N E C w : Nat} (wf : ScatterDims.WF ⟨2, ![N, C]⟩ ⟨2, ![E, 1]⟩ ⟨2, ![E, C]⟩ [1] [0] [0] 1)
  (j : (⟨2, ![E, C]⟩ : Shape).Idx) (idx : IVec ⟨2, ![E, 1]⟩ w)

theorem rowScatter_start0 :
    (rowScatterDims N E C wf).start j idx 0 = (idx (ix2 (j 0) (0 : Fin 1))).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

theorem rowScatter_window0 : (rowScatterDims N E C wf).window j 0 = 0 := by
  unfold ScatterDims.window
  rw [dif_neg (show ¬ (0 : Fin 2) ∈ (rowScatterDims N E C wf).sKept by simp [ScatterDims.sKept, Shape.kept])]

theorem rowScatter_start1 : (rowScatterDims N E C wf).start j idx 1 = 0 := by
  unfold ScatterDims.start
  rw [dif_neg (show ¬ (1 : Fin 2) ∈ [(0 : Fin 2)] by decide)]

theorem rowScatter_window1 : (rowScatterDims N E C wf).window j 1 = (j 1).val := by
  unfold ScatterDims.window
  rw [dif_pos (show (1 : Fin 2) ∈ (rowScatterDims N E C wf).sKept by simp [ScatterDims.sKept, Shape.kept])]
  rfl

/-- WHERE AN UPDATE LANDS: if update (e, c) lands at operand index `i`, the scatter index of row e, read signed,
    is `i`'s row, and the column is the update's own. -/
theorem rowScatter_lands (i : (⟨2, ![N, C]⟩ : Shape).Idx)
    (h : (rowScatterDims N E C wf).resultIdx? j idx = some i) :
    (idx (ix2 (j 0) (0 : Fin 1))).toInt = ((i 0).val : Int) ∧ (j 1).val = (i 1).val := by
  unfold ScatterDims.resultIdx? at h
  split at h
  · rename_i hall
    have hi := Option.some.inj h
    have h0 := congrArg Fin.val (congrFun hi 0)
    have h1 := congrArg Fin.val (congrFun hi 1)
    have a0 := hall 0
    have a1 := hall 1
    simp only [rowScatter_start0, rowScatter_window0, rowScatter_start1, rowScatter_window1] at h0 h1 a0 a1
    constructor
    · omega
    · omega
  · exact absurd h (by simp)

end RowScatter

/-! ## The normalising factor, and numpy's negative indices -/

/-- The f32 word of 1.0 denotes the real 1. -/
theorem one_word : Ideal.ofBits .f32 0x3F800000#32 = ((1 : ℝ) : EReal) := by
  simp [Ideal.ofBits, Ideal.ieee]
  norm_cast
  norm_num

/-- The inverse square root of anything bounded below by a positive quantity is a nonnegative real: the maximum is a
    positive real or +∞, whose inverse square roots are a nonnegative real and 0. -/
theorem rsqrt_max_nonneg (d one : EReal) (h1 : 0 < one) :
    0 ≤ Ideal.rsqrt (max d one) ∧ Ideal.rsqrt (max d one) ≠ ⊤ := by
  have hy : 0 < max d one := lt_max_of_lt_right h1
  generalize max d one = y at hy
  induction y using EReal.rec with
  | bot => exact absurd hy (by simp)
  | coe r =>
    have hr : 0 < r := by exact_mod_cast hy
    have e : Ideal.rsqrt (r : EReal) = (((Real.sqrt r)⁻¹ : ℝ) : EReal) := by
      show (if r < 0 then ⊥ else if r = 0 then ⊤ else (((Real.sqrt r)⁻¹ : ℝ) : EReal)) = _
      rw [if_neg (not_lt.mpr hr.le), if_neg hr.ne']
    rw [e]
    exact ⟨EReal.coe_nonneg.mpr (inv_nonneg.mpr (Real.sqrt_nonneg r)), EReal.coe_ne_top _⟩
  | top => exact ⟨le_of_eq rfl, by show (0 : EReal) ≠ ⊤; exact EReal.zero_ne_top⟩

/-- A 32-bit index whose signed value is a natural number n below N is left alone by "add N if negative", and
    clamping it into [0, N − 1] gives n back. -/
theorem wrap_clamp_of_toInt (N : Nat) (w : BitVec 32) (x : BitVec 32) (n : Nat) (hn : n < N) (hx : x.toInt = (n : Int)) :
    min (Scalar.select (IntOp.cmpi .slt x 0#32) (IntOp.addi x w) x).toInt.toNat (N - 1) = n := by
  have hs : IntOp.cmpi .slt x 0#32 = 0#1 := by
    show BitVec.ofBool (x.slt 0#32) = 0#1
    have : x.slt 0#32 = false := by
      rw [BitVec.slt_eq_decide]
      simp [hx]
    rw [this]; rfl
  rw [hs, select_zero, hx]
  simp only [Int.toNat_natCast]
  omega

/-! ## The edge-sum law -/

/-- THE EDGE-SUM LAW. `H` holds one row per node, `dis` one factor per node, a nonnegative real; `idxS` names the
    source row of each edge, `idxD` its target row as the scatter reads it (signed, dropped when outside) and `idxDw`
    its target row as a gather reads it (clamped); `hD`: whenever the scatter lands an edge at row n, the gather reads
    row n too. Then
        (Σ over edges landing at row i₀ of H[src]·dis[src]) · dis[i₀]
      = Σ over edges landing at row i₀ of H[src]·(dis[src]·dis[target]),
    entry by entry, both sums started from an all-zero array: the factor dis[i₀] is the same for every edge of the sum
    (`hD`), a nonnegative real passes through a finite sum of extended reals, and the product is associative. -/
theorem edge_sum_law {N E C : Nat}
    (wfg : GatherDims.WF ⟨2, ![N, C]⟩ ⟨2, ![E, 1]⟩ ⟨2, ![E, C]⟩ [1] [0] [] [0] [] 1 ![1, C])
    (wfv : GatherDims.WF ⟨1, ![N]⟩ ⟨2, ![E, 1]⟩ ⟨1, ![E]⟩ [] [0] [] [0] [] 1 ![1])
    (wfs : ScatterDims.WF ⟨2, ![N, C]⟩ ⟨2, ![E, 1]⟩ ⟨2, ![E, C]⟩ [1] [0] [0] 1)
    (H : (⟨2, ![N, C]⟩ : Shape).Idx → EReal) (dis : (⟨1, ![N]⟩ : Shape).Idx → EReal)
    (hdis : ∀ n, 0 ≤ dis n ∧ dis n ≠ ⊤)
    (Z : (⟨2, ![N, C]⟩ : Shape).Idx → EReal) (hZ : ∀ i, Z i = 0)
    (idxS idxD idxDw : IVec ⟨2, ![E, 1]⟩ 32)
    (hD : ∀ (e : Fin E) (n : Fin N), (idxD (ix2 e (0 : Fin 1))).toInt = (n.val : Int) →
        min (idxDw (ix2 e (0 : Fin 1))).toInt.toNat (N - 1) = n.val)
    (i : (⟨2, ![N, C]⟩ : Shape).Idx) :
    Ideal.hostScatterAdd (rowScatterDims N E C wfs) Z idxD
        (Host.gather (rowGatherDims N E C wfg) (fun r => H r * dis (ix1 (r 0))) idxS) i * dis (ix1 (i 0))
      = Ideal.hostScatterAdd (rowScatterDims N E C wfs) Z idxD
        (fun j => Host.gather (rowGatherDims N E C wfg) H idxS j
          * (Host.gather (vecGatherDims N E wfv) dis idxS (ix1 (j 0))
              * Host.gather (vecGatherDims N E wfv) dis idxDw (ix1 (j 0)))) i := by
  unfold Ideal.hostScatterAdd
  obtain ⟨h0, ht⟩ := hdis (ix1 (i 0))
  rw [hZ i, zero_add, zero_add, sum_mul_of_nonneg_of_ne_top _ _ h0 ht]
  refine Finset.sum_congr rfl fun j hj => ?_
  have hl := (Finset.mem_filter.mp hj).2
  obtain ⟨hrow, -⟩ := rowScatter_lands wfs j idxD i hl
  have e1 : ix1 (((rowGatherDims N E C wfg).operandIdx j idxS) 0)
      = (vecGatherDims N E wfv).operandIdx (ix1 (j 0)) idxS := funext fun a => Fin.ext (by
    match a with
    | ⟨0, _⟩ => exact (rowGather_row wfg j idxS).trans (vecGather_elt wfv (ix1 (j 0)) idxS).symm)
  have e2 : ix1 (i 0) = (vecGatherDims N E wfv).operandIdx (ix1 (j 0)) idxDw := funext fun a => Fin.ext (by
    match a with
    | ⟨0, _⟩ => exact ((vecGather_elt wfv (ix1 (j 0)) idxDw).trans (hD (j 0) (i 0) hrow)).symm)
  show H ((rowGatherDims N E C wfg).operandIdx j idxS)
        * dis (ix1 (((rowGatherDims N E C wfg).operandIdx j idxS) 0)) * dis (ix1 (i 0))
      = H ((rowGatherDims N E C wfg).operandIdx j idxS)
        * (dis ((vecGatherDims N E wfv).operandIdx (ix1 (j 0)) idxS)
            * dis ((vecGatherDims N E wfv).operandIdx (ix1 (j 0)) idxDw))
  rw [mul_assoc]
  exact congrArg (H ((rowGatherDims N E C wfg).operandIdx j idxS) * ·)
    (congrArg₂ (· * ·) (congrArg dis e1) (congrArg dis e2))

/-- The same law with the sum written as the host's accumulating scatter at the ideal instance (it is that sum). -/
theorem edge_sum_law_host {N E C : Nat}
    (wfg : GatherDims.WF ⟨2, ![N, C]⟩ ⟨2, ![E, 1]⟩ ⟨2, ![E, C]⟩ [1] [0] [] [0] [] 1 ![1, C])
    (wfv : GatherDims.WF ⟨1, ![N]⟩ ⟨2, ![E, 1]⟩ ⟨1, ![E]⟩ [] [0] [] [0] [] 1 ![1])
    (wfs : ScatterDims.WF ⟨2, ![N, C]⟩ ⟨2, ![E, 1]⟩ ⟨2, ![E, C]⟩ [1] [0] [0] 1)
    (H : (⟨2, ![N, C]⟩ : Shape).Idx → EReal) (dis : (⟨1, ![N]⟩ : Shape).Idx → EReal)
    (hdis : ∀ n, 0 ≤ dis n ∧ dis n ≠ ⊤)
    (Z : (⟨2, ![N, C]⟩ : Shape).Idx → EReal) (hZ : ∀ i, Z i = 0)
    (idxS idxD idxDw : IVec ⟨2, ![E, 1]⟩ 32)
    (hD : ∀ (e : Fin E) (n : Fin N), (idxD (ix2 e (0 : Fin 1))).toInt = (n.val : Int) →
        min (idxDw (ix2 e (0 : Fin 1))).toInt.toNat (N - 1) = n.val)
    (i : (⟨2, ![N, C]⟩ : Shape).Idx) :
    (Host.scatterAdd (F := Ideal) (φ := .f32) (rowScatterDims N E C wfs) Z idxD
        (Host.gather (α := EReal) (rowGatherDims N E C wfg) (fun r => H r * dis (ix1 (r 0))) idxS) i : EReal)
        * dis (ix1 (i 0))
      = Host.scatterAdd (F := Ideal) (φ := .f32) (rowScatterDims N E C wfs) Z idxD
        (fun j => Host.gather (α := EReal) (rowGatherDims N E C wfg) H idxS j
          * (Host.gather (α := EReal) (vecGatherDims N E wfv) dis idxS (ix1 (j 0))
              * Host.gather (α := EReal) (vecGatherDims N E wfv) dis idxDw (ix1 (j 0)))) i :=
  edge_sum_law wfg wfv wfs H dis hdis Z hZ idxS idxD idxDw hD i

end Cert.EdgeSum

end
-- ==== Proof.Bridge1.lean ====
/-
  The row-local stages against the reference's dense operations, entry by entry.

  The reference computes relu(x·W₀ + b₀)·W₁ with two whole matrix products; the specification's first stage is the
  same number at every entry, times the row's normalising factor. The contraction sums are literally the same sums once
  the reference's index functions are read (row r, column c, contraction index k), a bias row [1, 128] cast from a
  vector reads the vector, and a factor column [50000, 1] cast from a vector reads the vector.
-/
import proofs.«122493_j65197603553735_2_alg».proof.Proof.RefRead
import proofs.«122493_j65197603553735_2_alg».proof.Proof.GcnSpec
import proofs.«122493_j65197603553735_2_alg».proof.Proof.LibEdgeSum
import Idealize.ShloMosaic.Lib.ValueLayout
import Idealize.ShloMosaic.Lib.Pipeline.Value

set_option maxRecDepth 16384

noncomputable section

open scoped BigOperators

namespace Cert.Bridge1

open Cert.ReferenceIdeal Cert.ReferenceIdeal.Read
open Idealize.ShloMosaic Idealize.ShloMosaic.ValueIdx Cert.Gcn

/-- A vector cast to one column reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

variable (x0 : (⟨S50000x180, .f32⟩ : BufTy).Contents (Elt Ideal)) (x1 : (⟨S180x128, .f32⟩ : BufTy).Contents (Elt Ideal))
  (x2 : (⟨S128, .f32⟩ : BufTy).Contents (Elt Ideal)) (x3 : (⟨S128x128, .f32⟩ : BufTy).Contents (Elt Ideal))

/-- The dense layer relu(x·W₀ + b₀) at (r, k) is the reference's. -/
theorem hidden_eq (h2 : S128.ShapeCasts S1x128) (r : Fin 50000) (k : Fin 128) :
    Gcn.hidden x0 x1 (shapeCast S1x128 x2 h2) r k = val_main_v8 (F := Ideal) x0 x1 x2 (ix2 r k) := by
  rw [val_main_v8_apply, val_main_v7_apply, val_main_v4_apply, val_main_v6_apply, val_main_v5_apply,
    val_main_call0_v0_apply, val_main_call0_cst_apply]
  unfold Gcn.hidden
  have e1 : ∀ l : Fin 180, lidx_main_v4 (ix2 r k) l = ix2 r l := fun l => funext fun a => Fin.ext (by
    match a with
    | ⟨0, _⟩ => rfl
    | ⟨1, _⟩ => rfl)
  have e2 : ∀ l : Fin 180, ridx_main_v4 (ix2 r k) l = ix2 l k := fun l => funext fun a => Fin.ext (by
    match a with
    | ⟨0, _⟩ => rfl
    | ⟨1, _⟩ => rfl)
  have e3 : shapeCast S1x128 x2 h2 (ix2 (0 : Fin 1) k) = x2 (idx_main_v5 (idx_main_v6 (ix2 r k))) :=
    (shapeCast_a_1a_apply x2 h2 0 k).trans (congrArg x2 (funext fun a => Fin.ext (by
      match a with
      | ⟨0, _⟩ => rfl)))
  simp only [e1, e2]
  rw [e3]
  rfl

/-- The first stage at i: the reference's relu(x·W₀ + b₀)·W₁ at i, times the factor of i's row. -/
theorem stage1 (h2 : S128.ShapeCasts S1x128) (h17 : S50000.ShapeCasts (⟨2, ![50000, 1]⟩ : Shape))
    (d : (⟨S50000, .f32⟩ : BufTy).Contents (Elt Ideal)) (i : S50000x128.Idx) :
    scaledXW1 x0 x1 (shapeCast S1x128 x2 h2) x3 (shapeCast (⟨2, ![50000, 1]⟩ : Shape) d h17) i
      = val_main_v12 (F := Ideal) x0 x1 x2 x3 i * d (ix1 (i 0)) := by
  obtain ⟨r, c, rfl⟩ : ∃ (r : Fin 50000) (c : Fin 128), i = ix2 r c := ⟨i 0, i 1, eq_ix2 i⟩
  show scaledXW1At x0 x1 (shapeCast S1x128 x2 h2) x3 (shapeCast (⟨2, ![50000, 1]⟩ : Shape) d h17) r c = _
  unfold scaledXW1At
  rw [val_main_v12_apply, shapeCast_a_a1_apply]
  refine congrArg (· * d (ix1 r)) (Finset.sum_congr rfl fun k _ => ?_)
  rw [hidden_eq]
  have e1 : lidx_main_v12 (ix2 r c) k = ix2 r k := funext fun a => Fin.ext (by
    match a with
    | ⟨0, _⟩ => rfl
    | ⟨1, _⟩ => rfl)
  have e2 : ridx_main_v12 (ix2 r c) k = ix2 k c := funext fun a => Fin.ext (by
    match a with
    | ⟨0, _⟩ => rfl
    | ⟨1, _⟩ => rfl)
  rw [e1, e2]

end Cert.Bridge1

end
-- ==== Proof.Bridge2a.lean ====
/-
  Facts about the reference's own factor, zero and index terms.

  * the normalising factor of every node is a nonnegative real (it is 0, or the inverse square root of something at
    least 1);
  * the arrays both edge sums start from are all zeros;
  * an edge that the scatter lands at row n (its target index, read signed, is n) is read by the gather of the target
    factor at row n too (a nonnegative index is not moved by numpy's wrap, and n is inside the clamp).
-/
import proofs.«122493_j65197603553735_2_alg».proof.Proof.RefRead
import proofs.«122493_j65197603553735_2_alg».proof.Proof.GcnSpec
import proofs.«122493_j65197603553735_2_alg».proof.Proof.LibEdgeSum
import Idealize.ShloMosaic.Lib.ValueLayout
import Idealize.ShloMosaic.Lib.Pipeline.Value

set_option maxRecDepth 16384

noncomputable section

open scoped BigOperators

namespace Cert.Bridge2a

open Cert.ReferenceIdeal Cert.ReferenceIdeal.Read
open Idealize.ShloMosaic Idealize.ShloMosaic.ValueIdx Cert.Gcn

variable (x7 : (⟨S2x800000, .i32⟩ : BufTy).Contents (Elt Ideal))

/-! ## The factor -/

/-- Every node's normalising factor is a nonnegative real. -/
theorem dis_nonneg (n : S50000.Idx) :
    0 ≤ val_main_v22 (F := Ideal) x7 n ∧ val_main_v22 (F := Ideal) x7 n ≠ ⊤ := by
  rw [val_main_v22_apply]
  by_cases hb : val_main_v18 (F := Ideal) x7 n = 1#1
  · rw [hb, select_one, val_main_v21_apply, val_main_v20_apply, val_main_v19_apply, val_main_cst_2_apply]
    generalize val_main_v16 (F := Ideal) x7 n = dg
    exact Cert.EdgeSum.rsqrt_max_nonneg dg (Ideal.ofBits .f32 0x3F800000#32)
      (by rw [Cert.EdgeSum.one_word]; exact_mod_cast one_pos)
  · rw [eq_zero_of_ne_one hb, select_zero, val_main_call1_v1_apply, val_main_call1_v0_apply, val_main_cst_3_apply]
    have hz : (FloatOps.ofBits (F := Ideal) .f32 0x00000000#32 : EReal) = 0 := Ideal.ofBits_zero_f32
    rw [hz]
    exact ⟨le_refl _, EReal.zero_ne_top⟩

/-! ## The zero arrays -/

theorem zero128 (i : S50000x128.Idx) : val_main_v48 (F := Ideal) i = 0 := by
  rw [val_main_v48_apply, val_main_cst_9_apply]
  exact Ideal.ofBits_zero_f32

theorem zero64 (i : S50000x64.Idx) : val_main_v94 (F := Ideal) i = 0 := by
  rw [val_main_v94_apply, val_main_cst_21_apply]
  exact Ideal.ofBits_zero_f32

/-! ## Where an edge lands is where its target factor is read -/

theorem lands_reads (e : Fin 850000) (n : Fin 50000)
    (h : (val_main_v49 (F := Ideal) x7 (ix2 e (0 : Fin 1))).toInt = (n.val : Int)) :
    min (val_main_v35 (F := Ideal) x7 (ix2 e (0 : Fin 1))).toInt.toNat (50000 - 1) = n.val := by
  rw [val_main_v49_apply] at h
  rw [val_main_v35_apply, val_main_v34_apply, val_main_v31_apply, val_main_v33_apply, val_main_v30_apply,
    val_main_c_5_apply]
  have e1 : idx_main_v35 (ix2 e (0 : Fin 1)) = idx_main_v49 (ix2 e (0 : Fin 1)) := rfl
  rw [e1]
  exact Cert.EdgeSum.wrap_clamp_of_toInt 50000 _ _ n.val n.isLt h

end Cert.Bridge2a

end
-- ==== Proof.Bridge2b.lean ====
/-
  The update rows the reference sums over the edges: entry by entry, the gathered row times the product of the
  source's and the target's factors (both layers; the second layer's index and factor terms are the first layer's,
  the two layers sharing one edge list).
-/
import proofs.«122493_j65197603553735_2_alg».proof.Proof.RefRead
import proofs.«122493_j65197603553735_2_alg».proof.Proof.GcnSpec
import proofs.«122493_j65197603553735_2_alg».proof.Proof.LibEdgeSum
import Idealize.ShloMosaic.Lib.ValueLayout
import Idealize.ShloMosaic.Lib.Pipeline.Value

set_option maxRecDepth 16384

noncomputable section

open scoped BigOperators

namespace Cert.Bridge2b

open Cert.ReferenceIdeal Cert.ReferenceIdeal.Read
open Idealize.ShloMosaic Idealize.ShloMosaic.ValueIdx Cert.Gcn

variable (x7 : (⟨S2x800000, .i32⟩ : BufTy).Contents (Elt Ideal))

variable (x0 : (⟨S50000x180, .f32⟩ : BufTy).Contents (Elt Ideal)) (x1 : (⟨S180x128, .f32⟩ : BufTy).Contents (Elt Ideal))
  (x2 : (⟨S128, .f32⟩ : BufTy).Contents (Elt Ideal)) (x3 : (⟨S128x128, .f32⟩ : BufTy).Contents (Elt Ideal))
  (x4 : (⟨S128, .f32⟩ : BufTy).Contents (Elt Ideal)) (x5 : (⟨S128x64, .f32⟩ : BufTy).Contents (Elt Ideal))

/-! ## The update rows -/

/-- The first layer's update rows: the gathered row times (source factor · target factor). -/
theorem upd128 : val_main_v47 (F := Ideal) x0 x1 x2 x3 x7
    = fun j => Host.gather gather_S50000x128_S850000x1_S850000x128_1_0_n_n_0_1_1128
          (val_main_v12 (F := Ideal) x0 x1 x2 x3) (val_main_v43 (F := Ideal) x7) j
        * (Host.gather gather_S50000_S850000x1_S850000_n_0_n_n_0_1_1 (val_main_v22 (F := Ideal) x7)
              (val_main_v43 (F := Ideal) x7) (ix1 (j 0))
            * Host.gather gather_S50000_S850000x1_S850000_n_0_n_n_0_1_1 (val_main_v22 (F := Ideal) x7)
              (val_main_v35 (F := Ideal) x7) (ix1 (j 0))) := by
  funext j
  rw [val_main_v47_apply, val_main_v46_apply, val_main_v45_apply, val_main_v37_apply]
  have e : idx_main_v45 (idx_main_v46 j) = ix1 (j 0) := funext fun a => Fin.ext (by
    match a with
    | ⟨0, _⟩ => rfl)
  rw [e]
  rfl

/-- The second layer's update rows. -/
theorem upd64 : val_main_v93 (F := Ideal) x0 x1 x2 x3 x4 x5 x7
    = fun j => Host.gather gather_S50000x64_S850000x1_S850000x64_1_0_n_n_0_1_164
          (val_main_v58 (F := Ideal) x0 x1 x2 x3 x4 x5 x7) (val_main_v43 (F := Ideal) x7) j
        * (Host.gather gather_S50000_S850000x1_S850000_n_0_n_n_0_1_1 (val_main_v22 (F := Ideal) x7)
              (val_main_v43 (F := Ideal) x7) (ix1 (j 0))
            * Host.gather gather_S50000_S850000x1_S850000_n_0_n_n_0_1_1 (val_main_v22 (F := Ideal) x7)
              (val_main_v35 (F := Ideal) x7) (ix1 (j 0))) := by
  funext j
  rw [val_main_v93_apply, val_main_v92_apply, val_main_v91_apply, val_main_v83_apply]
  have e : idx_main_v91 (idx_main_v92 j) = ix1 (j 0) := funext fun a => Fin.ext (by
    match a with
    | ⟨0, _⟩ => rfl)
  rw [e]
  rfl

end Cert.Bridge2b

end
-- ==== Proof.Bridge2c.lean ====
/-
  The two edge sums of the reference, against "gather the scaled rows, sum them at the targets, scale the target row":
  the edge-sum law at the two widths, 128 and 64.
-/
import proofs.«122493_j65197603553735_2_alg».proof.Proof.RefRead
import proofs.«122493_j65197603553735_2_alg».proof.Proof.GcnSpec
import proofs.«122493_j65197603553735_2_alg».proof.Proof.LibEdgeSum
import proofs.«122493_j65197603553735_2_alg».proof.Proof.Bridge2a
import proofs.«122493_j65197603553735_2_alg».proof.Proof.Bridge2b
import Idealize.ShloMosaic.Lib.ValueLayout
import Idealize.ShloMosaic.Lib.Pipeline.Value

set_option maxRecDepth 16384

noncomputable section

open scoped BigOperators

namespace Cert.Bridge2c

open Cert.ReferenceIdeal Cert.ReferenceIdeal.Read
open Idealize.ShloMosaic Idealize.ShloMosaic.ValueIdx Cert.Gcn

open Cert.Bridge2a Cert.Bridge2b

variable (x7 : (⟨S2x800000, .i32⟩ : BufTy).Contents (Elt Ideal))

variable (x0 : (⟨S50000x180, .f32⟩ : BufTy).Contents (Elt Ideal)) (x1 : (⟨S180x128, .f32⟩ : BufTy).Contents (Elt Ideal))
  (x2 : (⟨S128, .f32⟩ : BufTy).Contents (Elt Ideal)) (x3 : (⟨S128x128, .f32⟩ : BufTy).Contents (Elt Ideal))
  (x4 : (⟨S128, .f32⟩ : BufTy).Contents (Elt Ideal)) (x5 : (⟨S128x64, .f32⟩ : BufTy).Contents (Elt Ideal))

/-! ## The printed dimension numbers are the row gather's, the vector gather's and the row scatter's -/

theorem scatter128_eq : scatter_S50000x128_S850000x1_S850000x128_1_0_0_1
    = Cert.EdgeSum.rowScatterDims 50000 850000 128 scatter_S50000x128_S850000x1_S850000x128_1_0_0_1.wf := rfl
theorem gather128_eq : gather_S50000x128_S850000x1_S850000x128_1_0_n_n_0_1_1128
    = Cert.EdgeSum.rowGatherDims 50000 850000 128 gather_S50000x128_S850000x1_S850000x128_1_0_n_n_0_1_1128.wf := rfl
theorem scatter64_eq : scatter_S50000x64_S850000x1_S850000x64_1_0_0_1
    = Cert.EdgeSum.rowScatterDims 50000 850000 64 scatter_S50000x64_S850000x1_S850000x64_1_0_0_1.wf := rfl
theorem gather64_eq : gather_S50000x64_S850000x1_S850000x64_1_0_n_n_0_1_164
    = Cert.EdgeSum.rowGatherDims 50000 850000 64 gather_S50000x64_S850000x1_S850000x64_1_0_n_n_0_1_164.wf := rfl
theorem gatherVec_eq : gather_S50000_S850000x1_S850000_n_0_n_n_0_1_1
    = Cert.EdgeSum.vecGatherDims 50000 850000 gather_S50000_S850000x1_S850000_n_0_n_n_0_1_1.wf := rfl

/-! ## The edge-sum law at the two widths -/

/-- First layer: scaled rows gathered, summed and scaled at the target = the reference's edge sum. -/
theorem edge128 (i : S50000x128.Idx) :
    (Host.scatterAdd (F := Ideal) (φ := .f32) scatter_S50000x128_S850000x1_S850000x128_1_0_0_1 (val_main_v48 (F := Ideal)) (val_main_v49 (F := Ideal) x7)
        (Host.gather (α := EReal) gather_S50000x128_S850000x1_S850000x128_1_0_n_n_0_1_1128
          (fun r : S50000x128.Idx => (val_main_v12 (F := Ideal) x0 x1 x2 x3 r : EReal) * (val_main_v22 (F := Ideal) x7 (ix1 (r 0)) : EReal))
          (val_main_v43 (F := Ideal) x7)) i : EReal)
      * (val_main_v22 (F := Ideal) x7 (ix1 (i 0)) : EReal)
    = val_main_v50 (F := Ideal) x0 x1 x2 x3 x7 i := by
  unfold val_main_v50
  rw [upd128, scatter128_eq, gather128_eq, gatherVec_eq]
  exact Cert.EdgeSum.edge_sum_law_host (N := 50000) (E := 850000) (C := 128) _ _ _
    (val_main_v12 (F := Ideal) x0 x1 x2 x3) (val_main_v22 (F := Ideal) x7) (dis_nonneg x7)
    (val_main_v48 (F := Ideal)) zero128
    (val_main_v43 (F := Ideal) x7) (val_main_v49 (F := Ideal) x7) (val_main_v35 (F := Ideal) x7)
    (lands_reads x7) i

/-- The second layer's index, factor and update terms are the first layer's (one edge list). -/
theorem v95_eq : val_main_v95 (F := Ideal) x7 = val_main_v49 (F := Ideal) x7 := rfl
theorem v89_eq : val_main_v89 (F := Ideal) x7 = val_main_v43 (F := Ideal) x7 := rfl

/-- Second layer: scaled rows gathered, summed and scaled at the target = the reference's edge sum. -/
theorem edge64 (i : S50000x64.Idx) :
    (Host.scatterAdd (F := Ideal) (φ := .f32) scatter_S50000x64_S850000x1_S850000x64_1_0_0_1 (val_main_v94 (F := Ideal)) (val_main_v95 (F := Ideal) x7)
        (Host.gather (α := EReal) gather_S50000x64_S850000x1_S850000x64_1_0_n_n_0_1_164
          (fun r : S50000x64.Idx => (val_main_v58 (F := Ideal) x0 x1 x2 x3 x4 x5 x7 r : EReal) * (val_main_v22 (F := Ideal) x7 (ix1 (r 0)) : EReal))
          (val_main_v89 (F := Ideal) x7)) i : EReal)
      * (val_main_v22 (F := Ideal) x7 (ix1 (i 0)) : EReal)
    = val_main_v96 (F := Ideal) x0 x1 x2 x3 x4 x5 x7 i := by
  unfold val_main_v96
  rw [upd64, v95_eq, v89_eq, scatter64_eq, gather64_eq, gatherVec_eq]
  exact Cert.EdgeSum.edge_sum_law_host (N := 50000) (E := 850000) (C := 64) _ _ _
    (val_main_v58 (F := Ideal) x0 x1 x2 x3 x4 x5 x7) (val_main_v22 (F := Ideal) x7) (dis_nonneg x7)
    (val_main_v94 (F := Ideal)) zero64
    (val_main_v43 (F := Ideal) x7) (val_main_v49 (F := Ideal) x7) (val_main_v35 (F := Ideal) x7)
    (lands_reads x7) i

end Cert.Bridge2c

end
-- ==== Proof.Bridge3.lean ====
/-
  The kernel program's function of the arguments is the reference's.

  The remaining row-local stages against the reference — relu(agg·d + b₁)·W₂ (with agg·d the reference's first edge
  sum, by the edge-sum law) and agg·d + b₂ — and the composition: first stage, edge sum, second stage, edge sum, last
  stage is, entry by entry, the reference's result.
-/
import proofs.«122493_j65197603553735_2_alg».proof.Proof.RefRead
import proofs.«122493_j65197603553735_2_alg».proof.Proof.GcnSpec
import proofs.«122493_j65197603553735_2_alg».proof.Proof.LibEdgeSum
import proofs.«122493_j65197603553735_2_alg».proof.Proof.Bridge1
import proofs.«122493_j65197603553735_2_alg».proof.Proof.Bridge2c
import Idealize.ShloMosaic.Lib.ValueLayout
import Idealize.ShloMosaic.Lib.Pipeline.Value

set_option maxRecDepth 16384

noncomputable section

open scoped BigOperators

namespace Cert.Bridge3

open Cert.ReferenceIdeal Cert.ReferenceIdeal.Read
open Idealize.ShloMosaic Idealize.ShloMosaic.ValueIdx Cert.Gcn

open Cert.Bridge1 Cert.Bridge2c

variable (x0 : (⟨S50000x180, .f32⟩ : BufTy).Contents (Elt Ideal)) (x1 : (⟨S180x128, .f32⟩ : BufTy).Contents (Elt Ideal)) (x2 : (⟨S128, .f32⟩ : BufTy).Contents (Elt Ideal)) (x3 : (⟨S128x128, .f32⟩ : BufTy).Contents (Elt Ideal))
  (x4 : (⟨S128, .f32⟩ : BufTy).Contents (Elt Ideal)) (x5 : (⟨S128x64, .f32⟩ : BufTy).Contents (Elt Ideal)) (x6 : (⟨S64, .f32⟩ : BufTy).Contents (Elt Ideal))
  (x7 : (⟨S2x800000, .i32⟩ : BufTy).Contents (Elt Ideal))

/-- The second stage at i, given that the summed rows times the row factor are the reference's first edge sum:
    the reference's relu(edge sum + b₁)·W₂ at i, times the factor of i's row. -/
theorem stage2 (h4 : S128.ShapeCasts S1x128) (h17 : S50000.ShapeCasts (⟨2, ![50000, 1]⟩ : Shape))
    (a : (⟨S50000x128, .f32⟩ : BufTy).Contents (Elt Ideal)) (d : (⟨S50000, .f32⟩ : BufTy).Contents (Elt Ideal))
    (ha : ∀ j : S50000x128.Idx, a j * d (ix1 (j 0)) = val_main_v50 (F := Ideal) x0 x1 x2 x3 x7 j)
    (i : S50000x64.Idx) :
    scaledXW2 a (shapeCast (⟨2, ![50000, 1]⟩ : Shape) d h17) (shapeCast S1x128 x4 h4) x5 i
      = val_main_v58 (F := Ideal) x0 x1 x2 x3 x4 x5 x7 i * d (ix1 (i 0)) := by
  obtain ⟨r, c, rfl⟩ : ∃ (r : Fin 50000) (c : Fin 64), i = ix2 r c := ⟨i 0, i 1, eq_ix2 i⟩
  show scaledXW2At a (shapeCast (⟨2, ![50000, 1]⟩ : Shape) d h17) (shapeCast S1x128 x4 h4) x5 r c = _
  unfold scaledXW2At
  rw [val_main_v58_apply, shapeCast_a_a1_apply]
  refine congrArg (· * d (ix1 r)) (Finset.sum_congr rfl fun k _ => ?_)
  have e1 : lidx_main_v58 (ix2 r c) k = ix2 r k := funext fun a => Fin.ext (by
    match a with
    | ⟨0, _⟩ => rfl
    | ⟨1, _⟩ => rfl)
  have e2 : ridx_main_v58 (ix2 r c) k = ix2 k c := funext fun a => Fin.ext (by
    match a with
    | ⟨0, _⟩ => rfl
    | ⟨1, _⟩ => rfl)
  have e3 : shapeCast S1x128 x4 h4 (ix2 (0 : Fin 1) k) = x4 (idx_main_v51 (idx_main_v52 (ix2 r k))) :=
    (shapeCast_a_1a_apply x4 h4 0 k).trans (congrArg x4 (funext fun a => Fin.ext (by
      match a with
      | ⟨0, _⟩ => rfl)))
  rw [e1, e2, val_main_v54_apply, val_main_v53_apply, val_main_v52_apply, val_main_v51_apply,
    val_main_call2_v0_apply, val_main_call2_cst_apply, ← ha (ix2 r k), e3]
  rfl

/-- The last stage at i, given that the summed rows times the row factor are the reference's second edge sum. -/
theorem stage3 (h6 : S64.ShapeCasts S1x64) (h17 : S50000.ShapeCasts (⟨2, ![50000, 1]⟩ : Shape))
    (a : (⟨S50000x64, .f32⟩ : BufTy).Contents (Elt Ideal)) (d : (⟨S50000, .f32⟩ : BufTy).Contents (Elt Ideal))
    (ha : ∀ j : S50000x64.Idx, a j * d (ix1 (j 0)) = val_main_v96 (F := Ideal) x0 x1 x2 x3 x4 x5 x7 j)
    (i : S50000x64.Idx) :
    finalOut a (shapeCast (⟨2, ![50000, 1]⟩ : Shape) d h17) (shapeCast S1x64 x6 h6) i
      = val_main_v99 (F := Ideal) x0 x1 x2 x3 x4 x5 x6 x7 i := by
  obtain ⟨r, c, rfl⟩ : ∃ (r : Fin 50000) (c : Fin 64), i = ix2 r c := ⟨i 0, i 1, eq_ix2 i⟩
  show finalOutAt a (shapeCast (⟨2, ![50000, 1]⟩ : Shape) d h17) (shapeCast S1x64 x6 h6) r c = _
  unfold finalOutAt
  have e3 : shapeCast S1x64 x6 h6 (ix2 (0 : Fin 1) c) = x6 (idx_main_v97 (idx_main_v98 (ix2 r c))) :=
    (shapeCast_a_1a_apply x6 h6 0 c).trans (congrArg x6 (funext fun a => Fin.ext (by
      match a with
      | ⟨0, _⟩ => rfl)))
  rw [val_main_v99_apply, val_main_v98_apply, val_main_v97_apply, shapeCast_a_a1_apply, ← ha (ix2 r c), e3]
  rfl

/-- The kernel program's function of the arguments: first stage, edge sum, second stage, edge sum, last stage, with
    the edge lists, the factor and the zero arrays spelt as the reference's own terms of the edge-index argument. -/
def kernelFn (h2 h4 : S128.ShapeCasts S1x128) (h6 : S64.ShapeCasts S1x64)
    (h17 : S50000.ShapeCasts (⟨2, ![50000, 1]⟩ : Shape)) : (⟨S50000x64, .f32⟩ : BufTy).Contents (Elt Ideal) :=
  finalOut
    (Host.scatterAdd (F := Ideal) (φ := .f32) scatter_S50000x64_S850000x1_S850000x64_1_0_0_1 (val_main_v94 (F := Ideal)) (val_main_v95 (F := Ideal) x7)
      (Host.gather (α := EReal) gather_S50000x64_S850000x1_S850000x64_1_0_n_n_0_1_164
        (scaledXW2
          (Host.scatterAdd (F := Ideal) (φ := .f32) scatter_S50000x128_S850000x1_S850000x128_1_0_0_1 (val_main_v48 (F := Ideal)) (val_main_v49 (F := Ideal) x7)
            (Host.gather (α := EReal) gather_S50000x128_S850000x1_S850000x128_1_0_n_n_0_1_1128
              (scaledXW1 x0 x1 (shapeCast S1x128 x2 h2) x3
                (shapeCast (⟨2, ![50000, 1]⟩ : Shape) (val_main_v22 (F := Ideal) x7) h17))
              (val_main_v43 (F := Ideal) x7)))
          (shapeCast (⟨2, ![50000, 1]⟩ : Shape) (val_main_v22 (F := Ideal) x7) h17) (shapeCast S1x128 x4 h4) x5)
        (val_main_v89 (F := Ideal) x7)))
    (shapeCast (⟨2, ![50000, 1]⟩ : Shape) (val_main_v22 (F := Ideal) x7) h17) (shapeCast S1x64 x6 h6)

/-- It is the reference's result term. -/
theorem kernelFn_eq (h2 h4 : S128.ShapeCasts S1x128) (h6 : S64.ShapeCasts S1x64)
    (h17 : S50000.ShapeCasts (⟨2, ![50000, 1]⟩ : Shape)) :
    kernelFn x0 x1 x2 x3 x4 x5 x6 x7 h2 h4 h6 h17 = val_main_v99 (F := Ideal) x0 x1 x2 x3 x4 x5 x6 x7 := by
  funext i
  unfold kernelFn
  refine stage3 x0 x1 x2 x3 x4 x5 x6 x7 h6 h17 _ (val_main_v22 (F := Ideal) x7) (fun j => ?_) i
  have hs2 : scaledXW2
      (Host.scatterAdd (F := Ideal) (φ := .f32) scatter_S50000x128_S850000x1_S850000x128_1_0_0_1 (val_main_v48 (F := Ideal)) (val_main_v49 (F := Ideal) x7)
        (Host.gather (α := EReal) gather_S50000x128_S850000x1_S850000x128_1_0_n_n_0_1_1128
          (scaledXW1 x0 x1 (shapeCast S1x128 x2 h2) x3
            (shapeCast (⟨2, ![50000, 1]⟩ : Shape) (val_main_v22 (F := Ideal) x7) h17))
          (val_main_v43 (F := Ideal) x7)))
      (shapeCast (⟨2, ![50000, 1]⟩ : Shape) (val_main_v22 (F := Ideal) x7) h17) (shapeCast S1x128 x4 h4) x5
      = fun r => val_main_v58 (F := Ideal) x0 x1 x2 x3 x4 x5 x7 r * val_main_v22 (F := Ideal) x7 (ix1 (r 0)) :=
    funext fun r => stage2 x0 x1 x2 x3 x4 x5 x7 h4 h17 _ (val_main_v22 (F := Ideal) x7) (fun j' => by
      have hs1 : scaledXW1 x0 x1 (shapeCast S1x128 x2 h2) x3
            (shapeCast (⟨2, ![50000, 1]⟩ : Shape) (val_main_v22 (F := Ideal) x7) h17)
          = fun q => val_main_v12 (F := Ideal) x0 x1 x2 x3 q * val_main_v22 (F := Ideal) x7 (ix1 (q 0)) :=
        funext fun q => stage1 x0 x1 x2 x3 h2 h17 (val_main_v22 (F := Ideal) x7) q
      rw [hs1]
      exact edge128 x7 x0 x1 x2 x3 j') r
  rw [hs2]
  exact edge64 x7 x0 x1 x2 x3 x4 x5 j

end Cert.Bridge3

end
-- ==== Proof.KValue.lean ====
/-
  The idealized kernel program's result, as the reference's function of the arguments.

  The run leaves in the result buffer what the last boundary records. Reading the boundaries backwards — the last
  region's whole-array function of what it found, the host's edge sum, the second region's function, the host's first
  edge sum, the first region's function, the host's preparation of the index vectors and the factor — gives the
  composition of the three row-local stages and the two edge sums, which is, entry by entry, the reference's result
  term of the same arguments.
-/
import proofs.«122493_j65197603553735_2_alg».proof.Proof.KRun
import proofs.«122493_j65197603553735_2_alg».proof.Proof.KGlue1
import proofs.«122493_j65197603553735_2_alg».proof.Proof.Region0
import proofs.«122493_j65197603553735_2_alg».proof.Proof.Region1
import proofs.«122493_j65197603553735_2_alg».proof.Proof.Region2
import proofs.«122493_j65197603553735_2_alg».proof.Proof.Bridge3

set_option maxRecDepth 16384
set_option maxHeartbeats 4000000

noncomputable section

namespace Cert.KernelIdeal.KValue

open Cert.KernelIdeal Cert.KernelIdeal.Gen
open Idealize.ShloMosaic Idealize.ShloMosaic.TcCoe Idealize.SL.Sem
open Cert.ReferenceIdeal.Read

variable (m : (ℓ : Loc nD τ sig) → Buf (Elt Ideal) ℓ) (ρ : Dev nD → PrngReg)

/-- What the last boundary records for the result buffer: the three stages and the two edge sums, composed. -/
theorem result_composed (c : Dev nD) : W8 (F := Ideal) m ρ c (Proc.devRef .tc main_v43)
    = Cert.Bridge3.kernelFn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
        shapeCasts_S128_S1x128 shapeCasts_S128_S1x128 shapeCasts_S64_S1x64 shapeCasts_S50000_S50000x1 := by
  rw [show W8 m ρ c (Proc.devRef .tc main_v43) = (dat2 (V7 m ρ) c).arrAt 3 cfg2.N from W8_arr m ρ c 3,
    Region2.final (V7 m ρ) c, Glue1.v41, Glue1.v7_17, Glue1.v42, Glue0.v17,
    show W6 m ρ c (Proc.devRef .tc main_v31) = (dat1 (V5 m ρ) c).arrAt 4 cfg1.N from W6_arr m ρ c 4,
    Region1.final (V5 m ρ) c, Glue1.v29, Glue1.v5_17, Glue1.v30, Glue1.v5_arg5, Glue0.v17,
    show W4 m ρ c (Proc.devRef .tc main_v19) = (dat0 (V3 m ρ) c).arrAt 5 cfg0.N from W4_arr m ρ c 5,
    Region0.final (V3 m ρ) c, Glue0.arg0, Glue0.arg1, Glue0.v18, Glue0.arg3, Glue0.v17]
  rfl

/-- The result buffer ends at the reference's result term of the kernel program's own arguments. -/
theorem result_eq (c : Dev nD) : W8 (F := Ideal) m ρ c (Proc.devRef .tc main_v43)
    = val_main_v99 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (result_composed m ρ c).trans (Cert.Bridge3.kernelFn_eq _ _ _ _ _ _ _ _ _ _ _ _)

/-- THE RUN, READ: every weakly fair execution of the idealized kernel program terminates without a fault, its result
    buffer at the reference's result term of its arguments, the arguments unchanged. -/
theorem run : θ_run defs (onTc (τ := τ) (main (F := Ideal))) ⟨m, fun _ => 0, ρ⟩ (fun r => ∀ c : Dev nD,
      r.2.mem ((c.tc : Thread nD τ).loc main_v43) = val_main_v99 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨(h c).1.trans (result_eq m ρ c), (h c).2⟩) (KRun.run_result m ρ)

end Cert.KernelIdeal.KValue

end
-- ==== Proof.lean ====
/-
  The certificate of a two-layer graph convolution kernel against its reference, over the extended reals.

  Both programs compute, for 50000 nodes and one list of 800000 edges with a self loop added per node,
      out = conv₂(relu(conv₁(relu(x·W₀ + b₀)))),   conv(H)[j] = Σ over edges e into j of (H·W)[src e]·(d(src e)·d(j)) + b,
  with d the inverse square root of the in-degree. The reference multiplies each gathered row by d(src e)·d(j) inside
  the sum; the kernel scales the rows of H·W by d before the gather (inside its first two regions) and the summed row
  by d(j) after it (inside its last two regions). The two agree entry by entry because d(j) is the same nonnegative real
  for every edge of one sum (an edge the scatter lands at j reads the target factor at j), a nonnegative real passes
  through a finite sum of extended reals, and the product is associative; no finiteness of the inputs is used.

  The frames are the generated ones (the reference's is its run with the result dropped); the ledger of idealizing
  rewrites is empty; the value claim puts the kernel program's run, read back through its three regions and the host
  stretches between them (KRun, KGlue0, KGlue1, Region0-2, KValue), beside the reference's run, at the reference's
  own result term (Bridge1-3 over LibEdgeSum and GcnSpec).
-/
import proofs.«122493_j65197603553735_2_alg».proof.Defs
import proofs.«122493_j65197603553735_2_alg».proof.Proof.Gen.Kernel
import proofs.«122493_j65197603553735_2_alg».proof.Proof.Gen.Kernel.Skeleton
import proofs.«122493_j65197603553735_2_alg».proof.Proof.Gen.Kernel.Launch
import proofs.«122493_j65197603553735_2_alg».proof.Proof.Gen.Kernel.Points
import proofs.«122493_j65197603553735_2_alg».proof.Proof.Gen.Kernel.Frame
import proofs.«122493_j65197603553735_2_alg».proof.Proof.Gen.KernelIdeal
import proofs.«122493_j65197603553735_2_alg».proof.Proof.Gen.KernelIdeal.Skeleton
import proofs.«122493_j65197603553735_2_alg».proof.Proof.Gen.KernelIdeal.Launch
import proofs.«122493_j65197603553735_2_alg».proof.Proof.Gen.KernelIdeal.Points
import proofs.«122493_j65197603553735_2_alg».proof.Proof.Gen.KernelIdeal.Frame
import proofs.«122493_j65197603553735_2_alg».proof.Proof.Gen.ReferenceIdeal
import proofs.«122493_j65197603553735_2_alg».proof.Proof.Gen.Pre_finite_inputs
import proofs.«122493_j65197603553735_2_alg».proof.Proof.RefRead
import proofs.«122493_j65197603553735_2_alg».proof.Proof.KValue
import Idealize.ShloMosaic.Adequacy
import Idealize.ShloMosaic.Init

noncomputable section

namespace Cert.Proof

open Idealize.ShloMosaic Idealize.SL.Sem Cert.Kernel

/-- The value claim: both runs end at the reference's result term of the (agreeing) arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.ReferenceIdeal.Read.val_main_v99 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v99_eq, (hagree c).1, (hagree c).2.1, (hagree c).2.2.1, (hagree c).2.2.2.1,
    (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
